-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x16384x512 : Shape := ⟨3, ![2, 16384, 512]⟩
abbrev S512x1152 : Shape := ⟨2, ![512, 1152]⟩
abbrev S512 : Shape := ⟨1, ![512]⟩
abbrev S512x128 : Shape := ⟨2, ![512, 128]⟩
abbrev S2x2x512x512 : Shape := ⟨4, ![2, 2, 512, 512]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S2x16384x512 : S_.BroadcastsInDim S2x16384x512 (![] : Fin 0 → Fin S2x16384x512.rank)
  reducesTo_S2x16384x512_S_d0_1_2 : S2x16384x512.ReducesTo [0, 1, 2] S_
  bcast_S_S512x1152 : S_.BroadcastsInDim S512x1152 (![] : Fin 0 → Fin S512x1152.rank)
  reducesTo_S512x1152_S_d0_1 : S512x1152.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S2x2x512x512 : S_.BroadcastsInDim S2x2x512x512 (![] : Fin 0 → Fin S2x2x512x512.rank)
  reducesTo_S2x2x512x512_S_d0_1_2_3 : S2x2x512x512.ReducesTo [0, 1, 2, 3] S_

variable [Facts]

def fn_part3 {F : FTy → Type} [FloatOps F] (main_arg11 : FVec F S512 .f32) (main_v48 : IVec S_ 1) (main_v49 : FVec F S2x2x512x512 .f32) (main_v50 : FVec F S2x2x512x512 .f32) : IVec S_ 1 :=
  let main_v51 : IVec S2x2x512x512 1 := cmpf .olt main_v49 main_v50
  let main_c_19 : IVec S_ 1 := constantI S_ 1 1#1
  let main_v52 : IVec S_ 1 := (fun x v => Host.reduce IntOp.andi x v reducesTo_S2x2x512x512_S_d0_1_2_3 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S512x1152 .f32) (main_arg8 : FVec F S512 .f32) (main_arg9 : FVec F S512x128 .f32) (main_arg10 : FVec F S2x2x512x512 .f32) (main_arg11 : FVec F S512 .f32) (main_v33 : IVec S_ 1) : IVec S_ 1 :=
  let main_v34 : FVec F S512x1152 .f32 := Host.absf main_arg7
  let main_cst_12 : FVec F S_ .f32 := constant S_ .f32 0x7F800000#32
  let main_v35 : FVec F S512x1152 .f32 := broadcastInDim S512x1152 ![] bcast_S_S512x1152 main_cst_12
  let main_v36 : IVec S512x1152 1 := cmpf .olt main_v34 main_v35
  let main_c_13 : IVec S_ 1 := constantI S_ 1 1#1
  let main_v37 : IVec S_ 1 := (fun x v => Host.reduce IntOp.andi x v reducesTo_S512x1152_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S2x2x512x512 .f32 := Host.absf main_arg10
  let main_cst_18 : FVec F S_ .f32 := constant S_ .f32 0x7F800000#32
  let main_v50 : FVec F S2x2x512x512 .f32 := broadcastInDim S2x2x512x512 ![] bcast_S_S2x2x512x512 main_cst_18
  fn_part3 (F := F) main_arg11 main_v48 main_v49 main_v50

def fn_part1 {F : FTy → Type} [FloatOps F] (main_arg4 : FVec F S512 .f32) (main_arg5 : FVec F S512x1152 .f32) (main_arg6 : FVec F S512 .f32) (main_arg7 : FVec F S512x1152 .f32) (main_arg8 : FVec F S512 .f32) (main_arg9 : FVec F S512x128 .f32) (main_arg10 : FVec F S2x2x512x512 .f32) (main_arg11 : FVec F S512 .f32) (main_v13 : IVec S_ 1) (main_v16 : IVec S512x1152 1) : IVec S_ 1 :=
  let main_c_5 : IVec S_ 1 := constantI S_ 1 1#1
  let main_v17 : IVec S_ 1 := (fun x v => Host.reduce IntOp.andi x v reducesTo_S512x1152_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1152 .f32 := Host.absf main_arg5
  let main_cst_8 : FVec F S_ .f32 := constant S_ .f32 0x7F800000#32
  let main_v25 : FVec F S512x1152 .f32 := broadcastInDim S512x1152 ![] bcast_S_S512x1152 main_cst_8
  let main_v26 : IVec S512x1152 1 := cmpf .olt main_v24 main_v25
  let main_c_9 : IVec S_ 1 := constantI S_ 1 1#1
  let main_v27 : IVec S_ 1 := (fun x v => Host.reduce IntOp.andi x v reducesTo_S512x1152_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x128 .f32) (main_arg1 : FVec F S2x16384x512 .f32) (main_arg2 : FVec F S2x16384x512 .f32) (main_arg3 : FVec F S512x1152 .f32) (main_arg4 : FVec F S512 .f32) (main_arg5 : FVec F S512x1152 .f32) (main_arg6 : FVec F S512 .f32) (main_arg7 : FVec F S512x1152 .f32) (main_arg8 : FVec F S512 .f32) (main_arg9 : FVec F S512x128 .f32) (main_arg10 : FVec F S2x2x512x512 .f32) (main_arg11 : FVec F S512 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S2x16384x512 .f32 := Host.absf main_arg1
  let main_cst_0 : FVec F S_ .f32 := constant S_ .f32 0x7F800000#32
  let main_v5 : FVec F S2x16384x512 .f32 := broadcastInDim S2x16384x512 ![] bcast_S_S2x16384x512 main_cst_0
  let main_v6 : IVec S2x16384x512 1 := cmpf .olt main_v4 main_v5
  let main_c_1 : IVec S_ 1 := constantI S_ 1 1#1
  let main_v7 : IVec S_ 1 := (fun x v => Host.reduce IntOp.andi x v reducesTo_S2x16384x512_S_d0_1_2 h_S_) main_v6 main_c_1
  let main_v8 : IVec S_ 1 := andi main_v3 main_v7
  let main_v9 : FVec F S2x16384x512 .f32 := Host.absf main_arg2
  let main_cst_2 : FVec F S_ .f32 := constant S_ .f32 0x7F800000#32
  let main_v10 : FVec F S2x16384x512 .f32 := broadcastInDim S2x16384x512 ![] bcast_S_S2x16384x512 main_cst_2
  let main_v11 : IVec S2x16384x512 1 := cmpf .olt main_v9 main_v10
  let main_c_3 : IVec S_ 1 := constantI S_ 1 1#1
  let main_v12 : IVec S_ 1 := (fun x v => Host.reduce IntOp.andi x v reducesTo_S2x16384x512_S_d0_1_2 h_S_) main_v11 main_c_3
  let main_v13 : IVec S_ 1 := andi main_v8 main_v12
  let main_v14 : FVec F S512x1152 .f32 := Host.absf main_arg3
  let main_cst_4 : FVec F S_ .f32 := constant S_ .f32 0x7F800000#32
  let main_v15 : FVec F S512x1152 .f32 := broadcastInDim S512x1152 ![] bcast_S_S512x1152 main_cst_4
  let main_v16 : IVec S512x1152 1 := cmpf .olt main_v14 main_v15
  fn_part1 (F := F) main_arg4 main_arg5 main_arg6 main_arg7 main_arg8 main_arg9 main_arg10 main_arg11 main_v13 main_v16
-- ==== Kernel.lean ====
abbrev S16384x128 : Shape := ⟨2, ![16384, 128]⟩
abbrev S2x16384x512 : Shape := ⟨3, ![2, 16384, 512]⟩
abbrev S512x1152 : Shape := ⟨2, ![512, 1152]⟩
abbrev S512 : Shape := ⟨1, ![512]⟩
abbrev S512x128 : Shape := ⟨2, ![512, 128]⟩
abbrev S2x2x512x512 : Shape := ⟨4, ![2, 2, 512, 512]⟩
abbrev S1152x512 : Shape := ⟨2, ![1152, 512]⟩
abbrev S2x512x128 : Shape := ⟨3, ![2, 512, 128]⟩
abbrev S2x512x2x512 : Shape := ⟨4, ![2, 512, 2, 512]⟩
abbrev S2x512x1024 : Shape := ⟨3, ![2, 512, 1024]⟩
abbrev S2x512x1152 : Shape := ⟨3, ![2, 512, 1152]⟩
abbrev S2x1152x512 : Shape := ⟨3, ![2, 1152, 512]⟩
abbrev S1x1152x512 : Shape := ⟨3, ![1, 1152, 512]⟩
abbrev S1152x2560 : Shape := ⟨2, ![1152, 2560]⟩
abbrev S128x2560 : Shape := ⟨2, ![128, 2560]⟩
abbrev S512x2560 : Shape := ⟨2, ![512, 2560]⟩
abbrev S1x512x2560 : Shape := ⟨3, ![1, 512, 2560]⟩
abbrev S2x512x2560 : Shape := ⟨3, ![2, 512, 2560]⟩
abbrev S_ : Shape := ⟨0, ![]⟩
abbrev S1024 : Shape := ⟨1, ![1024]⟩
abbrev S2560 : Shape := ⟨1, ![2560]⟩
abbrev S1x2560 : Shape := ⟨2, ![1, 2560]⟩
abbrev S1x512 : Shape := ⟨2, ![1, 512]⟩
abbrev S16384x512 : Shape := ⟨2, ![16384, 512]⟩
abbrev S1024x128 : Shape := ⟨2, ![1024, 128]⟩
abbrev S2x1024x512 : Shape := ⟨3, ![2, 1024, 512]⟩
abbrev S1024x512 : Shape := ⟨2, ![1024, 512]⟩
abbrev S1024x2560 : Shape := ⟨2, ![1024, 2560]⟩
abbrev S1x1024x512 : Shape := ⟨3, ![1, 1024, 512]⟩

abbrev nBuf : Space → Nat
  | .hbm => 40
  | .vmem => 14
  | .smem => 0
  | _ => 0

abbrev bufTy : (tb : Table) → Fin (tcTables nBuf tb) → BufTy
  | .hbm, ⟨0, _⟩ => ⟨S16384x128, .f32⟩
  | .hbm, ⟨1, _⟩ => ⟨S2x16384x512, .f32⟩
  | .hbm, ⟨2, _⟩ => ⟨S2x16384x512, .f32⟩
  | .hbm, ⟨3, _⟩ => ⟨S512x1152, .f32⟩
  | .hbm, ⟨4, _⟩ => ⟨S512, .f32⟩
  | .hbm, ⟨5, _⟩ => ⟨S512x1152, .f32⟩
  | .hbm, ⟨6, _⟩ => ⟨S512, .f32⟩
  | .hbm, ⟨7, _⟩ => ⟨S512x1152, .f32⟩
  | .hbm, ⟨8, _⟩ => ⟨S512, .f32⟩
  | .hbm, ⟨9, _⟩ => ⟨S512x128, .f32⟩
  | .hbm, ⟨10, _⟩ => ⟨S2x2x512x512, .f32⟩
  | .hbm, ⟨11, _⟩ => ⟨S512, .f32⟩
  | .hbm, ⟨12, _⟩ => ⟨S1152x512, .f32⟩
  | .hbm, ⟨13, _⟩ => ⟨S1152x512, .f32⟩
  | .hbm, ⟨14, _⟩ => ⟨S1152x512, .f32⟩
  | .hbm, ⟨15, _⟩ => ⟨S2x512x128, .f32⟩
  | .hbm, ⟨16, _⟩ => ⟨S2x512x2x512, .f32⟩
  | .hbm, ⟨17, _⟩ => ⟨S2x512x1024, .f32⟩
  | .hbm, ⟨18, _⟩ => ⟨S2x512x1152, .f32⟩
  | .hbm, ⟨19, _⟩ => ⟨S2x1152x512, .f32⟩
  | .hbm, ⟨20, _⟩ => ⟨S1x1152x512, .f32⟩
  | .hbm, ⟨21, _⟩ => ⟨S1152x512, .f32⟩
  | .hbm, ⟨22, _⟩ => ⟨S1x1152x512, .f32⟩
  | .hbm, ⟨23, _⟩ => ⟨S1152x512, .f32⟩
  | .hbm, ⟨24, _⟩ => ⟨S1152x2560, .f32⟩
  | .hbm, ⟨25, _⟩ => ⟨S128x2560, .f32⟩
  | .hbm, ⟨26, _⟩ => ⟨S128x2560, .bf16⟩
  | .hbm, ⟨27, _⟩ => ⟨S512x2560, .f32⟩
  | .hbm, ⟨28, _⟩ => ⟨S512x2560, .f32⟩
  | .hbm, ⟨29, _⟩ => ⟨S1x512x2560, .f32⟩
  | .hbm, ⟨30, _⟩ => ⟨S1x512x2560, .f32⟩
  | .hbm, ⟨31, _⟩ => ⟨S2x512x2560, .f32⟩
  | .hbm, ⟨32, _⟩ => ⟨S2x512x2560, .bf16⟩
  | .hbm, ⟨33, _⟩ => ⟨S_, .f32⟩
  | .hbm, ⟨34, _⟩ => ⟨S1024, .f32⟩
  | .hbm, ⟨35, _⟩ => ⟨S2560, .f32⟩
  | .hbm, ⟨36, _⟩ => ⟨S1x2560, .f32⟩
  | .hbm, ⟨37, _⟩ => ⟨S1x512, .f32⟩
  | .hbm, ⟨38, _⟩ => ⟨S16384x512, .f32⟩
  | .hbm, ⟨39, _⟩ => ⟨S16384x512, .f32⟩
  | .local _ .vmem, ⟨0, _⟩ => ⟨S1024x128, .f32⟩
  | .local _ .vmem, ⟨1, _⟩ => ⟨S1024x128, .f32⟩
  | .local _ .vmem, ⟨2, _⟩ => ⟨S2x1024x512, .f32⟩
  | .local _ .vmem, ⟨3, _⟩ => ⟨S2x1024x512, .f32⟩
  | .local _ .vmem, ⟨4, _⟩ => ⟨S2x1024x512, .f32⟩
  | .local _ .vmem, ⟨5, _⟩ => ⟨S2x1024x512, .f32⟩
  | .local _ .vmem, ⟨6, _⟩ => ⟨S128x2560, .bf16⟩
  | .local _ .vmem, ⟨7, _⟩ => ⟨S2x512x2560, .bf16⟩
  | .local _ .vmem, ⟨8, _⟩ => ⟨S1x2560, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S512x1152_S1152x512_1_0 : S512x1152.Transposes [1, 0] S1152x512
  bcast_S512x128_S2x512x128_1_2 : S512x128.BroadcastsInDim S2x512x128 (![1, 2] : Fin 2 → Fin S2x512x128.rank)
  transposes_S2x2x512x512_S2x512x2x512_0_2_1_3 : S2x2x512x512.Transposes [0, 2, 1, 3] S2x512x2x512
  shapeCasts_S2x512x2x512_S2x512x1024 : S2x512x2x512.ShapeCasts S2x512x1024
  concatenates_S2x512x128_S2x512x1024_S2x512x1152_d2 : Shape.Concatenates [S2x512x128, S2x512x1024] S2x512x1152 2
  transposes_S2x512x1152_S2x1152x512_0_2_1 : S2x512x1152.Transposes [0, 2, 1] S2x1152x512
  slices_S2x1152x512_S1x1152x512_0_0_0 : S2x1152x512.Slices ![0, 0, 0] S1x1152x512
  shapeCasts_S1x1152x512_S1152x512 : S1x1152x512.ShapeCasts S1152x512
  slices_S2x1152x512_S1x1152x512_1_0_0 : S2x1152x512.Slices ![1, 0, 0] S1x1152x512
  concatenates_S1152x512_S1152x512_S1152x512_S1152x512_S1152x512_S1152x2560_d1 : Shape.Concatenates [S1152x512, S1152x512, S1152x512, S1152x512, S1152x512] S1152x2560 1
  slices_S1152x2560_S128x2560_0_0 : S1152x2560.Slices ![0, 0] S128x2560
  bitsLt_bf16_f32 : FTy.bits .bf16 < FTy.bits .f32
  slices_S1152x2560_S512x2560_128_0 : S1152x2560.Slices ![128, 0] S512x2560
  slices_S1152x2560_S512x2560_640_0 : S1152x2560.Slices ![640, 0] S512x2560
  bcast_S512x2560_S1x512x2560_1_2 : S512x2560.BroadcastsInDim S1x512x2560 (![1, 2] : Fin 2 → Fin S1x512x2560.rank)
  concatenates_S1x512x2560_S1x512x2560_S2x512x2560_d0 : Shape.Concatenates [S1x512x2560, S1x512x2560] S2x512x2560 0
  bcast_S_S1024 : S_.BroadcastsInDim S1024 (![] : Fin 0 → Fin S1024.rank)
  concatenates_S512_S512_S512_S1024_S2560_d0 : Shape.Concatenates [S512, S512, S512, S1024] S2560 0
  shapeCasts_S2560_S1x2560 : S2560.ShapeCasts S1x2560
  shapeCasts_S512_S1x512 : S512.ShapeCasts S1x512
  inb_S1024x128_S1024x128_0_0 : ∀ a, (![0, 0] : Fin 2 → Nat) a + S1024x128.size a ≤ S1024x128.size a
  h_S1024x128 : 0 < S1024x128.numel
  inb_S128x2560_S128x2560_0_0 : ∀ a, (![0, 0] : Fin 2 → Nat) a + S128x2560.size a ≤ S128x2560.size a
  h_S128x2560 : 0 < S128x2560.numel
  shapeCasts_S128x2560_S128x2560 : S128x2560.ShapeCasts S128x2560
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  inb_S2x512x2560_S1x512x2560_0_0_0 : ∀ a, (![0, 0, 0] : Fin 3 → Nat) a + S1x512x2560.size a ≤ S2x512x2560.size a
  h_S1x512x2560 : 0 < S1x512x2560.numel
  shapeCasts_S1x512x2560_S512x2560 : S1x512x2560.ShapeCasts S512x2560
  inb_S2x1024x512_S1x1024x512_1_0_0 : ∀ a, (![1, 0, 0] : Fin 3 → Nat) a + S1x1024x512.size a ≤ S2x1024x512.size a
  inb_S2x512x2560_S1x512x2560_1_0_0 : ∀ a, (![1, 0, 0] : Fin 3 → Nat) a + S1x512x2560.size a ≤ S2x512x2560.size a
  inb_S1x2560_S1x2560_0_0 : ∀ a, (![0, 0] : Fin 2 → Nat) a + S1x2560.size a ≤ S1x2560.size a
  h_S1x2560 : 0 < S1x2560.numel
  shapeCasts_S1x2560_S1x2560 : S1x2560.ShapeCasts S1x2560
  broadcasts_S1x2560_S1024x2560 : S1x2560.Broadcasts S1024x2560
  slices_S1024x2560_o0_0_S1024x512 : S1024x2560.Slices ![0, 0] S1024x512
  slices_S1024x2560_o0_512_S1024x512 : S1024x2560.Slices ![0, 512] S1024x512
  slices_S1024x2560_o0_1024_S1024x512 : S1024x2560.Slices ![0, 1024] S1024x512
  slices_S1024x2560_o0_1536_S1024x512 : S1024x2560.Slices ![0, 1536] S1024x512
  slices_S1024x2560_o0_2048_S1024x512 : S1024x2560.Slices ![0, 2048] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x128_S128x2560_S1024x2560_1_0_0_1_n_n_wf : DotDims.WF S1024x128 S128x2560 S1024x2560 [1] [0] [0] [1] [] []
  dot_S1024x512_S512x2560_S1024x2560_1_0_0_1_n_n_wf : DotDims.WF S1024x512 S512x2560 S1024x2560 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x512.size a ≤ S2x16384x512.size a
  hwx0_1 : ∀ i : grid0.Coords, EltTy.bits .f32 = 32 ∨ (Rect.block (s := S2x16384x512) S2x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x512.size a ≤ S2x16384x512.size a
  hwx0_2 : ∀ i : grid0.Coords, EltTy.bits .f32 = 32 ∨ (Rect.block (s := S2x16384x512) S2x1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2560.size a ≤ S128x2560.size a
  hwx0_3 : ∀ i : grid0.Coords, EltTy.bits .bf16 = 32 ∨ (Rect.block (s := S128x2560) S128x2560.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x512x2560.size a ≤ S2x512x2560.size a
  hwx0_4 : ∀ i : grid0.Coords, EltTy.bits .bf16 = 32 ∨ (Rect.block (s := S2x512x2560) S2x512x2560.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2560.size a ≤ S1x2560.size a
  hwx0_5 : ∀ i : grid0.Coords, EltTy.bits .f32 = 32 ∨ (Rect.block (s := S1x2560) S1x2560.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S16384x512.size a
  hwx0_8 : ∀ i : grid0.Coords, EltTy.bits .f32 = 32 ∨ (Rect.block (s := S16384x512) S1024x512.size (cc0_transform_8 i) (hinb0_8 i)).WholeWords (EltTy.packing .f32)

variable [Facts₀]

def dot_S1024x128_S128x2560_S1024x2560_1_0_0_1_n_n : DotDims S1024x128 S128x2560 S1024x2560 where
  lhsContracting := [1]
  rhsContracting := [0]
  lhsNonContracting := [0]
  rhsNonContracting := [1]
  lhsBatch := []
  rhsBatch := []
  wf := dot_S1024x128_S128x2560_S1024x2560_1_0_0_1_n_n_wf
def dot_S1024x512_S512x2560_S1024x2560_1_0_0_1_n_n : DotDims S1024x512 S512x2560 S1024x2560 where
  lhsContracting := [1]
  rhsContracting := [0]
  lhsNonContracting := [0]
  rhsNonContracting := [1]
  lhsBatch := []
  rhsBatch := []
  wf := dot_S1024x512_S512x2560_S1024x2560_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x2560.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S2x512x2560.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x2560.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25_0) S1024x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v25_1) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x128 : Shape := ⟨2, ![16384, 128]⟩
abbrev S2x16384x512 : Shape := ⟨3, ![2, 16384, 512]⟩
abbrev S512x1152 : Shape := ⟨2, ![512, 1152]⟩
abbrev S512 : Shape := ⟨1, ![512]⟩
abbrev S512x128 : Shape := ⟨2, ![512, 128]⟩
abbrev S2x2x512x512 : Shape := ⟨4, ![2, 2, 512, 512]⟩
abbrev S16384x2x512 : Shape := ⟨3, ![16384, 2, 512]⟩
abbrev S16384x1024 : Shape := ⟨2, ![16384, 1024]⟩
abbrev S16384x1152 : Shape := ⟨2, ![16384, 1152]⟩
abbrev S1152x512 : Shape := ⟨2, ![1152, 512]⟩
abbrev S16384x512 : Shape := ⟨2, ![16384, 512]⟩
abbrev S1x512 : Shape := ⟨2, ![1, 512]⟩
abbrev S_ : Shape := ⟨0, ![]⟩
abbrev S2x512x128 : Shape := ⟨3, ![2, 512, 128]⟩
abbrev S2x512x2x512 : Shape := ⟨4, ![2, 512, 2, 512]⟩
abbrev S2x512x1024 : Shape := ⟨3, ![2, 512, 1024]⟩
abbrev S2x512x1152 : Shape := ⟨3, ![2, 512, 1152]⟩

abbrev nBuf : Space → Nat
  | .hbm => 74
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x16384x512, .f32⟩
  | .hbm, ⟨2, _⟩ => ⟨S2x16384x512, .f32⟩
  | .hbm, ⟨3, _⟩ => ⟨S512x1152, .f32⟩
  | .hbm, ⟨4, _⟩ => ⟨S512, .f32⟩
  | .hbm, ⟨5, _⟩ => ⟨S512x1152, .f32⟩
  | .hbm, ⟨6, _⟩ => ⟨S512, .f32⟩
  | .hbm, ⟨7, _⟩ => ⟨S512x1152, .f32⟩
  | .hbm, ⟨8, _⟩ => ⟨S512, .f32⟩
  | .hbm, ⟨9, _⟩ => ⟨S512x128, .f32⟩
  | .hbm, ⟨10, _⟩ => ⟨S2x2x512x512, .f32⟩
  | .hbm, ⟨11, _⟩ => ⟨S512, .f32⟩
  | .hbm, ⟨12, _⟩ => ⟨S16384x2x512, .f32⟩
  | .hbm, ⟨13, _⟩ => ⟨S16384x1024, .f32⟩
  | .hbm, ⟨14, _⟩ => ⟨S16384x1152, .f32⟩
  | .hbm, ⟨15, _⟩ => ⟨S1152x512, .f32⟩
  | .hbm, ⟨16, _⟩ => ⟨S16384x512, .f32⟩
  | .hbm, ⟨17, _⟩ => ⟨S1x512, .f32⟩
  | .hbm, ⟨18, _⟩ => ⟨S16384x512, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S1152x512, .f32⟩
  | .hbm, ⟨29, _⟩ => ⟨S16384x512, .f32⟩
  | .hbm, ⟨30, _⟩ => ⟨S1x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S1152x512, .f32⟩
  | .hbm, ⟨42, _⟩ => ⟨S16384x512, .f32⟩
  | .hbm, ⟨43, _⟩ => ⟨S1x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S2x512x128, .f32⟩
  | .hbm, ⟨48, _⟩ => ⟨S2x512x2x512, .f32⟩
  | .hbm, ⟨49, _⟩ => ⟨S2x512x1024, .f32⟩
  | .hbm, ⟨50, _⟩ => ⟨S2x512x1152, .f32⟩
  | .hbm, ⟨51, _⟩ => ⟨S16384x2x512, .f32⟩
  | .hbm, ⟨52, _⟩ => ⟨S2x16384x512, .f32⟩
  | .hbm, ⟨53, _⟩ => ⟨S2x16384x512, .f32⟩
  | .hbm, ⟨54, _⟩ => ⟨S2x16384x512, .f32⟩
  | .hbm, ⟨55, _⟩ => ⟨S_, .f32⟩
  | .hbm, ⟨56, _⟩ => ⟨S2x16384x512, .f32⟩
  | .hbm, ⟨57, _⟩ => ⟨S2x16384x512, .f32⟩
  | .hbm, ⟨58, _⟩ => ⟨S_, .f32⟩
  | .hbm, ⟨59, _⟩ => ⟨S2x16384x512, .f32⟩
  | .hbm, ⟨60, _⟩ => ⟨S2x16384x512, .f32⟩
  | .hbm, ⟨61, _⟩ => ⟨S2x16384x512, .f32⟩
  | .hbm, ⟨62, _⟩ => ⟨S_, .f32⟩
  | .hbm, ⟨63, _⟩ => ⟨S16384x512, .f32⟩
  | .hbm, ⟨64, _⟩ => ⟨S_, .f32⟩
  | .hbm, ⟨65, _⟩ => ⟨S16384x512, .f32⟩
  | .hbm, ⟨66, _⟩ => ⟨S1x512, .f32⟩
  | .hbm, ⟨67, _⟩ => ⟨S16384x512, .f32⟩
  | .hbm, ⟨68, _⟩ => ⟨S16384x512, .f32⟩
  | .hbm, ⟨69, _⟩ => ⟨S16384x512, .f32⟩
  | .hbm, ⟨70, _⟩ => ⟨S16384x512, .f32⟩
  | .hbm, ⟨71, _⟩ => ⟨S16384x512, .f32⟩
  | .hbm, ⟨72, _⟩ => ⟨S16384x512, .f32⟩
  | .hbm, ⟨73, _⟩ => ⟨S16384x512, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_3 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  transposes_S2x16384x512_S16384x2x512_1_0_2 : S2x16384x512.Transposes [1, 0, 2] S16384x2x512
  shapeCasts_S16384x2x512_S16384x1024 : S16384x2x512.ShapeCasts S16384x1024
  concatenates_S16384x128_S16384x1024_S16384x1152_d1 : Shape.Concatenates [S16384x128, S16384x1024] S16384x1152 1
  transposes_S512x1152_S1152x512_1_0 : S512x1152.Transposes [1, 0] S1152x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S512x128_S2x512x128_1_2 : S512x128.BroadcastsInDim S2x512x128 (![1, 2] : Fin 2 → Fin S2x512x128.rank)
  transposes_S2x2x512x512_S2x512x2x512_0_2_1_3 : S2x2x512x512.Transposes [0, 2, 1, 3] S2x512x2x512
  shapeCasts_S2x512x2x512_S2x512x1024 : S2x512x2x512.ShapeCasts S2x512x1024
  concatenates_S2x512x128_S2x512x1024_S2x512x1152_d2 : Shape.Concatenates [S2x512x128, S2x512x1024] S2x512x1152 2
  transposes_S16384x2x512_S2x16384x512_1_0_2 : S16384x2x512.Transposes [1, 0, 2] S2x16384x512
  bcast_S_S2x16384x512 : S_.BroadcastsInDim S2x16384x512 (![] : Fin 0 → Fin S2x16384x512.rank)
  reducesTo_S2x16384x512_S16384x512_d0 : S2x16384x512.ReducesTo [0] S16384x512
  h_S_ : 0 < S_.numel
  dot_S16384x1152_S1152x512_S16384x512_1_0_0_1_n_n_wf : DotDims.WF S16384x1152 S1152x512 S16384x512 [1] [0] [0] [1] [] []
  dot_S16384x1152_S2x512x1152_S16384x2x512_1_2_0_01_n_n_wf : DotDims.WF S16384x1152 S2x512x1152 S16384x2x512 [1] [2] [0] [0, 1] [] []

variable [Facts₀]

def dot_S16384x1152_S1152x512_S16384x512_1_0_0_1_n_n : DotDims S16384x1152 S1152x512 S16384x512 where
  lhsContracting := [1]
  rhsContracting := [0]
  lhsNonContracting := [0]
  rhsNonContracting := [1]
  lhsBatch := []
  rhsBatch := []
  wf := dot_S16384x1152_S1152x512_S16384x512_1_0_0_1_n_n_wf
def dot_S16384x1152_S2x512x1152_S16384x2x512_1_2_0_01_n_n : DotDims S16384x1152 S2x512x1152 S16384x2x512 where
  lhsContracting := [1]
  rhsContracting := [2]
  lhsNonContracting := [0]
  rhsNonContracting := [0, 1]
  lhsBatch := []
  rhsBatch := []
  wf := dot_S16384x1152_S2x512x1152_S16384x2x512_1_2_0_01_n_n_wf

class Facts : Prop extends Facts₀ where

variable [Facts]
-- ==== Proof.KernelFrame.lean ====
/-
  The frame of the kernel program: @main is a line of host operations (transposes, reshapes, slices,
  concatenations, conversions) followed by one pipelined region of sixteen grid points. Nothing before the
  region writes an argument array, three arguments are staged as input windows and read only, the other
  nine bypass the region; so every argument array ends as it was launched.

  The road: the contents of the TensorCore's buffers at the region's entry are the launch contents pushed
  through the host line (V); each input window's staging buffer holds its block of the entry contents at
  every point, fetched there or not; the body leaves in each output window's staging buffer the one store
  it makes there, over payloads that are functions of the input blocks; the pipeline's frame theorem then
  gives the final memory, read at the twelve argument arrays.
-/
import proofs.«100941_j84189948936634_2_alg».proof.Proof.Gen.Kernel.Launch
import proofs.«100941_j84189948936634_2_alg».proof.Proof.Gen.Kernel.Skeleton
import proofs.«100941_j84189948936634_2_alg».proof.Proof.Gen.Kernel.Points
import Idealize.ShloMosaic.Lib.Pipeline.FrameBody
import Idealize.ShloMosaic.Lib.Ring
import Idealize.ShloMosaic.Lib.Tactic

-- membership of an index in a rectangle 1024 long recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- What core `c`'s buffer `b` holds when the region is entered: the launch contents after the host line. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main reduces to the region entered with the buffers at `V`: it is the host line, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is the result of no host operation is found by the region as launched. The results
    are the twenty-six values `main_v0 … main_v24`, `main_cst`: each operation writes its one result. -/
theorem V_of_not_result (c : Dev nD) (r : Ref sig .tc)
    (h : ∀ y ∈ ([main_v0, main_v1, main_v2, main_v3, main_v4, main_v5, main_v6, main_v7, main_v8, main_v9, main_v10,
      main_v11, main_v12, main_v13, main_v14, main_v15, main_v16, main_v17, main_v18, main_v19, main_v20, main_cst,
      main_v21, main_v22, main_v23, main_v24] : List (Ref sig .tc)), r ≠ y) :
    V m c r = m ((c : Thread nD τ).loc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.reshape_writes, StableHlo.nary_writes, Finset.mem_singleton]
    simp only [List.mem_cons, List.not_mem_nil, or_false, forall_eq_or_imp, forall_eq] at h
    obtain ⟨h0, h1, h2, h3, h4, h5, h6, h7, h8, h9, h10, h11, h12, h13, h14, h15, h16, h17, h18, h19, h20, hc,
      h21, h22, h23, h24⟩ := h
    refine ⟨?_, ?_, ?_, ?_, ?_, ?_, ?_, ?_, ?_, ?_, ?_, ?_, ?_, ?_, ?_, ?_, ?_, ?_, ?_, ?_, ?_, ?_, ?_, ?_, ?_, ?_⟩ <;>
      apply StableHlo.devRef_ne_of_ne <;> assumption))

theorem V_main_arg0 (c : Dev nD) : V m c main_arg0 = m ((c : Thread nD τ).loc main_arg0) := V_of_not_result m c _ (by decide)
theorem V_main_arg1 (c : Dev nD) : V m c main_arg1 = m ((c : Thread nD τ).loc main_arg1) := V_of_not_result m c _ (by decide)
theorem V_main_arg2 (c : Dev nD) : V m c main_arg2 = m ((c : Thread nD τ).loc main_arg2) := V_of_not_result m c _ (by decide)
theorem V_main_arg3 (c : Dev nD) : V m c main_arg3 = m ((c : Thread nD τ).loc main_arg3) := V_of_not_result m c _ (by decide)
theorem V_main_arg4 (c : Dev nD) : V m c main_arg4 = m ((c : Thread nD τ).loc main_arg4) := V_of_not_result m c _ (by decide)
theorem V_main_arg5 (c : Dev nD) : V m c main_arg5 = m ((c : Thread nD τ).loc main_arg5) := V_of_not_result m c _ (by decide)
theorem V_main_arg6 (c : Dev nD) : V m c main_arg6 = m ((c : Thread nD τ).loc main_arg6) := V_of_not_result m c _ (by decide)
theorem V_main_arg7 (c : Dev nD) : V m c main_arg7 = m ((c : Thread nD τ).loc main_arg7) := V_of_not_result m c _ (by decide)
theorem V_main_arg8 (c : Dev nD) : V m c main_arg8 = m ((c : Thread nD τ).loc main_arg8) := V_of_not_result m c _ (by decide)
theorem V_main_arg9 (c : Dev nD) : V m c main_arg9 = m ((c : Thread nD τ).loc main_arg9) := V_of_not_result m c _ (by decide)
theorem V_main_arg10 (c : Dev nD) : V m c main_arg10 = m ((c : Thread nD τ).loc main_arg10) := V_of_not_result m c _ (by decide)
theorem V_main_arg11 (c : Dev nD) : V m c main_arg11 = m ((c : Thread nD τ).loc main_arg11) := V_of_not_result m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the entry contents and whose body leaves the block in place: a point that does not fetch
    has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the entry contents and whose body leaves the block in place: a point that does not fetch
    has the block index of the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the entry contents and whose body leaves the block in place: a point that does not fetch
    has the block index of the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the entry contents and whose body leaves the block in place: a point that does not fetch
    has the block index of the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the entry contents and whose body leaves the block in place: a point that does not fetch
    has the block index of the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the entry contents and whose body leaves the block in place: a point that does not fetch
    has the block index of the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the entry contents and whose body leaves the block in place: a point that does not fetch
    has the block index of the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame run's post at a final state, read at the twelve argument arrays. An argument a window stages
    (0, 1, 2) is an input of the pipeline, which ends at its entry contents; the nine others are staged by no window
    and bypass the region; either way the entry contents are the launch contents (`V_main_argK`). -/
theorem kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩

/-- The frame from a frame run: the run's post weakened, state by state, to the argument arrays (`kept`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept m dats hA r h c) h

/-! ## The body's accesses -/

/-- Window 0's buffer, whole. -/
abbrev rA : Rect S1024x128 := Rect.unit (s := S1024x128) ![0, 0] S1024x128.size inb_S1024x128_S1024x128_0_0
/-- The first and the second half of a `2 × 1024 × 512` buffer (windows 1 and 2). -/
abbrev rH0 : Rect S2x1024x512 := Rect.unit (s := S2x1024x512) ![0, 0, 0] S1x1024x512.size inb_S2x1024x512_S1x1024x512_0_0_0
abbrev rH1 : Rect S2x1024x512 := Rect.unit (s := S2x1024x512) ![1, 0, 0] S1x1024x512.size inb_S2x1024x512_S1x1024x512_1_0_0
/-- Window 3's buffer, whole. -/
abbrev rW : Rect S128x2560 := Rect.unit (s := S128x2560) ![0, 0] S128x2560.size inb_S128x2560_S128x2560_0_0
/-- The first and the second half of window 4's `2 × 512 × 2560` buffer. -/
abbrev rU0 : Rect S2x512x2560 := Rect.unit (s := S2x512x2560) ![0, 0, 0] S1x512x2560.size inb_S2x512x2560_S1x512x2560_0_0_0
abbrev rU1 : Rect S2x512x2560 := Rect.unit (s := S2x512x2560) ![1, 0, 0] S1x512x2560.size inb_S2x512x2560_S1x512x2560_1_0_0
/-- Window 5's and window 6's buffers, whole. -/
abbrev rB : Rect S1x2560 := Rect.unit (s := S1x2560) ![0, 0] S1x2560.size inb_S1x2560_S1x2560_0_0
abbrev rP : Rect S1x512 := Rect.unit (s := S1x512) ![0, 0] S1x512.size inb_S1x512_S1x512_0_0
/-- An output window's buffer (windows 7 and 8), whole. -/
abbrev rO : Rect S1024x512 := Rect.unit (s := S1024x512) ![0, 0] S1024x512.size inb_S1024x512_S1024x512_0_0

/-! ## What the body leaves in each output window's buffer

The body loads, in this order, window 0 whole; window 3 whole; the first half of window 1; the first half of
window 4; the first half of window 2; the second halves of windows 1, 4, 2; window 5; then window 6. The
six values its first sixty statements hand on are payloads 3 to 8 of those loads; the two stores are
payloads 1 and 2 of the six and of window 6's load. -/

/-- Window 7's staging buffer after the body: its one store, over the input windows' contents. -/
def out0_7 (x0 : Vec F S1024x128 .f32) (x1 : Vec F S2x1024x512 .f32) (x2 : Vec F S2x1024x512 .f32) (x3 : Vec F S128x2560 .bf16)
    (x4 : Vec F S2x512x2560 .bf16) (x5 : Vec F S1x2560 .f32) (x6 : Vec F S1x512 .f32) : Vec F S1024x512 .f32 :=
  View.canon [⟨rO, k0_pay1 (k0_pay3 (View.ld x2 rH0)) (k0_pay4 (View.ld x2 rH1))
    (k0_pay5 (View.ld x0 rA) (View.ld x3 rW) (View.ld x1 rH0) (View.ld x4 rU0) (View.ld x1 rH1) (View.ld x4 rU1) (View.ld x5 rB))
    (k0_pay6 (View.ld x0 rA) (View.ld x3 rW) (View.ld x1 rH0) (View.ld x4 rU0) (View.ld x1 rH1) (View.ld x4 rU1) (View.ld x5 rB))
    (k0_pay8 (View.ld x0 rA) (View.ld x3 rW) (View.ld x1 rH0) (View.ld x4 rU0) (View.ld x1 rH1) (View.ld x4 rU1) (View.ld x5 rB))
    (View.ld x6 rP)⟩]

/-- Window 8's staging buffer after the body: its one store, over the input windows' contents. -/
def out0_8 (x0 : Vec F S1024x128 .f32) (x1 : Vec F S2x1024x512 .f32) (x2 : Vec F S2x1024x512 .f32) (x3 : Vec F S128x2560 .bf16)
    (x4 : Vec F S2x512x2560 .bf16) (x5 : Vec F S1x2560 .f32) (x6 : Vec F S1x512 .f32) : Vec F S1024x512 .f32 :=
  View.canon [⟨rO, k0_pay2 (k0_pay3 (View.ld x2 rH0)) (k0_pay4 (View.ld x2 rH1))
    (k0_pay5 (View.ld x0 rA) (View.ld x3 rW) (View.ld x1 rH0) (View.ld x4 rU0) (View.ld x1 rH1) (View.ld x4 rU1) (View.ld x5 rB))
    (k0_pay6 (View.ld x0 rA) (View.ld x3 rW) (View.ld x1 rH0) (View.ld x4 rU0) (View.ld x1 rH1) (View.ld x4 rU1) (View.ld x5 rB))
    (k0_pay7 (View.ld x0 rA) (View.ld x3 rW) (View.ld x1 rH0) (View.ld x4 rU0) (View.ld x1 rH1) (View.ld x4 rU1) (View.ld x5 rB))
    (k0_pay8 (View.ld x0 rA) (View.ld x3 rW) (View.ld x1 rH0) (View.ld x4 rU0) (View.ld x1 rH1) (View.ld x4 rU1) (View.ld x5 rB))
    (View.ld x6 rP)⟩]

/-- The one store of an output window is through the whole buffer, so it covers it. -/
theorem coverO (p0 : Vec F S1024x512 .f32) (y : S1024x512.Idx) :
    ∃ pc ∈ ([⟨rO, p0⟩] : List (View.Piece (Elt F) S1024x512 .f32)), y ∈ pc.1.set :=
  View.cover_of_tiled [⟨rO, p0⟩] S1024x512.size (by rfl) y

/-! ## The pipeline's proof data -/

/-- The proof data of the pipeline on core `c`: the arrays as the region finds them; after the body at point `t`
    each input's buffer at its block and each output's at its store over the input blocks; the invariant the
    untouched rest (scoped buffers that stage nothing, the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body's triple -/

set_option maxHeartbeats 1000000 in
/-- The kernel body on whole staging memrefs, the seven inputs' at read contents `x0 … x6` and the two outputs' at
    anything, runs to the continuation holding the inputs' as they were and each output's at its store over them.
    The body is its skeleton of loads and stores over named payloads; the loads read the inputs' contents through
    their rectangles, the two loads of the outputs' buffers read values nothing uses, and each output's one store,
    through its whole buffer, leaves what the canon of that store names. -/
theorem sound_kernel (c : Dev nD) (E : Set ℕ) (i : grid0.Coords) (arg1 : Memref sig .tc .vmem S1024x128 .f32) (harg1 : arg1.IsWhole) (arg2 : Memref sig .tc .vmem S2x1024x512 .f32) (harg2 : arg2.IsWhole) (arg3 : Memref sig .tc .vmem S2x1024x512 .f32) (harg3 : arg3.IsWhole) (arg4 : Memref sig .tc .vmem S128x2560 .bf16) (harg4 : arg4.IsWhole) (arg5 : Memref sig .tc .vmem S2x512x2560 .bf16) (harg5 : arg5.IsWhole) (arg6 : Memref sig .tc .vmem S1x2560 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole)
    (x0 : Vec F S1024x128 .f32) (x1 : Vec F S2x1024x512 .f32) (x2 : Vec F S2x1024x512 .f32) (x3 : Vec F S128x2560 .bf16) (x4 : Vec F S2x512x2560 .bf16) (x5 : Vec F S1x2560 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__tree_lstm_kernel i arg1 harg1 arg2 harg2 arg3 harg3 arg4 harg4 arg5 harg5 arg6 harg6 arg7 harg7 arg8 harg8 arg9 harg9) K := by
  simp only [cc0__tree_lstm_kernel_eq_skeleton]; unfold cc0__tree_lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  iexists _; isplitr
  swap; · iexact H8
  ipureintro
  exact View.read_writes_eq_canon _ _ _ (coverO _)

/-! ## The body obligation, at a generic point -/

/-- What the body is called with at point `t`: the invariant, nothing owed, and each window's current staging
    buffer at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies at the blocks; the
    invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame theorem's implicit arguments are found by unifying its conclusion with this one, which takes unfolding
-- plain definitions in a metavariable's type
set_option backward.isDefEq.respectTransparency.types false in
/-- From any memory with zero counters, every weakly fair execution of @main on the TensorCore terminates, and every
    final state has each array of the pipeline at what the proof data computes and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without fault and its twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Fr

end
-- ==== Proof.KernelIdealFrame.lean ====
/-
  The frame of the kernel program: @main is a line of host operations (transposes, reshapes, slices,
  concatenations, conversions) followed by one pipelined region of sixteen grid points. Nothing before the
  region writes an argument array, three arguments are staged as input windows and read only, the other
  nine bypass the region; so every argument array ends as it was launched.

  The road: the contents of the TensorCore's buffers at the region's entry are the launch contents pushed
  through the host line (V); each input window's staging buffer holds its block of the entry contents at
  every point, fetched there or not; the body leaves in each output window's staging buffer the one store
  it makes there, over payloads that are functions of the input blocks; the pipeline's frame theorem then
  gives the final memory, read at the twelve argument arrays.
-/
import proofs.«100941_j84189948936634_2_alg».proof.Proof.Gen.KernelIdeal.Launch
import proofs.«100941_j84189948936634_2_alg».proof.Proof.Gen.KernelIdeal.Skeleton
import proofs.«100941_j84189948936634_2_alg».proof.Proof.Gen.KernelIdeal.Points
import Idealize.ShloMosaic.Lib.Pipeline.FrameBody
import Idealize.ShloMosaic.Lib.Ring
import Idealize.ShloMosaic.Lib.Tactic

-- membership of an index in a rectangle 1024 long recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- What core `c`'s buffer `b` holds when the region is entered: the launch contents after the host line. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main reduces to the region entered with the buffers at `V`: it is the host line, then the region. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference that is the result of no host operation is found by the region as launched. The results
    are the twenty-six values `main_v0 … main_v24`, `main_cst`: each operation writes its one result. -/
theorem V_of_not_result (c : Dev nD) (r : Ref sig .tc)
    (h : ∀ y ∈ ([main_v0, main_v1, main_v2, main_v3, main_v4, main_v5, main_v6, main_v7, main_v8, main_v9, main_v10,
      main_v11, main_v12, main_v13, main_v14, main_v15, main_v16, main_v17, main_v18, main_v19, main_v20, main_cst,
      main_v21, main_v22, main_v23, main_v24] : List (Ref sig .tc)), r ≠ y) :
    V m c r = m ((c : Thread nD τ).loc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.reshape_writes, StableHlo.nary_writes, Finset.mem_singleton]
    simp only [List.mem_cons, List.not_mem_nil, or_false, forall_eq_or_imp, forall_eq] at h
    obtain ⟨h0, h1, h2, h3, h4, h5, h6, h7, h8, h9, h10, h11, h12, h13, h14, h15, h16, h17, h18, h19, h20, hc,
      h21, h22, h23, h24⟩ := h
    refine ⟨?_, ?_, ?_, ?_, ?_, ?_, ?_, ?_, ?_, ?_, ?_, ?_, ?_, ?_, ?_, ?_, ?_, ?_, ?_, ?_, ?_, ?_, ?_, ?_, ?_, ?_⟩ <;>
      apply StableHlo.devRef_ne_of_ne <;> assumption))

theorem V_main_arg0 (c : Dev nD) : V m c main_arg0 = m ((c : Thread nD τ).loc main_arg0) := V_of_not_result m c _ (by decide)
theorem V_main_arg1 (c : Dev nD) : V m c main_arg1 = m ((c : Thread nD τ).loc main_arg1) := V_of_not_result m c _ (by decide)
theorem V_main_arg2 (c : Dev nD) : V m c main_arg2 = m ((c : Thread nD τ).loc main_arg2) := V_of_not_result m c _ (by decide)
theorem V_main_arg3 (c : Dev nD) : V m c main_arg3 = m ((c : Thread nD τ).loc main_arg3) := V_of_not_result m c _ (by decide)
theorem V_main_arg4 (c : Dev nD) : V m c main_arg4 = m ((c : Thread nD τ).loc main_arg4) := V_of_not_result m c _ (by decide)
theorem V_main_arg5 (c : Dev nD) : V m c main_arg5 = m ((c : Thread nD τ).loc main_arg5) := V_of_not_result m c _ (by decide)
theorem V_main_arg6 (c : Dev nD) : V m c main_arg6 = m ((c : Thread nD τ).loc main_arg6) := V_of_not_result m c _ (by decide)
theorem V_main_arg7 (c : Dev nD) : V m c main_arg7 = m ((c : Thread nD τ).loc main_arg7) := V_of_not_result m c _ (by decide)
theorem V_main_arg8 (c : Dev nD) : V m c main_arg8 = m ((c : Thread nD τ).loc main_arg8) := V_of_not_result m c _ (by decide)
theorem V_main_arg9 (c : Dev nD) : V m c main_arg9 = m ((c : Thread nD τ).loc main_arg9) := V_of_not_result m c _ (by decide)
theorem V_main_arg10 (c : Dev nD) : V m c main_arg10 = m ((c : Thread nD τ).loc main_arg10) := V_of_not_result m c _ (by decide)
theorem V_main_arg11 (c : Dev nD) : V m c main_arg11 = m ((c : Thread nD τ).loc main_arg11) := V_of_not_result m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the entry contents and whose body leaves the block in place: a point that does not fetch
    has the block index of the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the entry contents and whose body leaves the block in place: a point that does not fetch
    has the block index of the point before. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the entry contents and whose body leaves the block in place: a point that does not fetch
    has the block index of the point before. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the entry contents and whose body leaves the block in place: a point that does not fetch
    has the block index of the point before. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the entry contents and whose body leaves the block in place: a point that does not fetch
    has the block index of the point before. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the entry contents and whose body leaves the block in place: a point that does not fetch
    has the block index of the point before. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the entry contents and whose body leaves the block in place: a point that does not fetch
    has the block index of the point before. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame run's post at a final state, read at the twelve argument arrays. An argument a window stages
    (0, 1, 2) is an input of the pipeline, which ends at its entry contents; the nine others are staged by no window
    and bypass the region; either way the entry contents are the launch contents (`V_main_argK`). -/
theorem kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩

/-- The frame from a frame run: the run's post weakened, state by state, to the argument arrays (`kept`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept m dats hA r h c) h

/-! ## The body's accesses -/

/-- Window 0's buffer, whole. -/
abbrev rA : Rect S1024x128 := Rect.unit (s := S1024x128) ![0, 0] S1024x128.size inb_S1024x128_S1024x128_0_0
/-- The first and the second half of a `2 × 1024 × 512` buffer (windows 1 and 2). -/
abbrev rH0 : Rect S2x1024x512 := Rect.unit (s := S2x1024x512) ![0, 0, 0] S1x1024x512.size inb_S2x1024x512_S1x1024x512_0_0_0
abbrev rH1 : Rect S2x1024x512 := Rect.unit (s := S2x1024x512) ![1, 0, 0] S1x1024x512.size inb_S2x1024x512_S1x1024x512_1_0_0
/-- Window 3's buffer, whole. -/
abbrev rW : Rect S128x2560 := Rect.unit (s := S128x2560) ![0, 0] S128x2560.size inb_S128x2560_S128x2560_0_0
/-- The first and the second half of window 4's `2 × 512 × 2560` buffer. -/
abbrev rU0 : Rect S2x512x2560 := Rect.unit (s := S2x512x2560) ![0, 0, 0] S1x512x2560.size inb_S2x512x2560_S1x512x2560_0_0_0
abbrev rU1 : Rect S2x512x2560 := Rect.unit (s := S2x512x2560) ![1, 0, 0] S1x512x2560.size inb_S2x512x2560_S1x512x2560_1_0_0
/-- Window 5's and window 6's buffers, whole. -/
abbrev rB : Rect S1x2560 := Rect.unit (s := S1x2560) ![0, 0] S1x2560.size inb_S1x2560_S1x2560_0_0
abbrev rP : Rect S1x512 := Rect.unit (s := S1x512) ![0, 0] S1x512.size inb_S1x512_S1x512_0_0
/-- An output window's buffer (windows 7 and 8), whole. -/
abbrev rO : Rect S1024x512 := Rect.unit (s := S1024x512) ![0, 0] S1024x512.size inb_S1024x512_S1024x512_0_0

/-! ## What the body leaves in each output window's buffer

The body loads, in this order, window 0 whole; window 3 whole; the first half of window 1; the first half of
window 4; the first half of window 2; the second halves of windows 1, 4, 2; window 5; then window 6. The
six values its first sixty statements hand on are payloads 3 to 8 of those loads; the two stores are
payloads 1 and 2 of the six and of window 6's load. -/

/-- Window 7's staging buffer after the body: its one store, over the input windows' contents. -/
def out0_7 (x0 : Vec F S1024x128 .f32) (x1 : Vec F S2x1024x512 .f32) (x2 : Vec F S2x1024x512 .f32) (x3 : Vec F S128x2560 .bf16)
    (x4 : Vec F S2x512x2560 .bf16) (x5 : Vec F S1x2560 .f32) (x6 : Vec F S1x512 .f32) : Vec F S1024x512 .f32 :=
  View.canon [⟨rO, k0_pay1 (k0_pay3 (View.ld x2 rH0)) (k0_pay4 (View.ld x2 rH1))
    (k0_pay5 (View.ld x0 rA) (View.ld x3 rW) (View.ld x1 rH0) (View.ld x4 rU0) (View.ld x1 rH1) (View.ld x4 rU1) (View.ld x5 rB))
    (k0_pay6 (View.ld x0 rA) (View.ld x3 rW) (View.ld x1 rH0) (View.ld x4 rU0) (View.ld x1 rH1) (View.ld x4 rU1) (View.ld x5 rB))
    (k0_pay8 (View.ld x0 rA) (View.ld x3 rW) (View.ld x1 rH0) (View.ld x4 rU0) (View.ld x1 rH1) (View.ld x4 rU1) (View.ld x5 rB))
    (View.ld x6 rP)⟩]

/-- Window 8's staging buffer after the body: its one store, over the input windows' contents. -/
def out0_8 (x0 : Vec F S1024x128 .f32) (x1 : Vec F S2x1024x512 .f32) (x2 : Vec F S2x1024x512 .f32) (x3 : Vec F S128x2560 .bf16)
    (x4 : Vec F S2x512x2560 .bf16) (x5 : Vec F S1x2560 .f32) (x6 : Vec F S1x512 .f32) : Vec F S1024x512 .f32 :=
  View.canon [⟨rO, k0_pay2 (k0_pay3 (View.ld x2 rH0)) (k0_pay4 (View.ld x2 rH1))
    (k0_pay5 (View.ld x0 rA) (View.ld x3 rW) (View.ld x1 rH0) (View.ld x4 rU0) (View.ld x1 rH1) (View.ld x4 rU1) (View.ld x5 rB))
    (k0_pay6 (View.ld x0 rA) (View.ld x3 rW) (View.ld x1 rH0) (View.ld x4 rU0) (View.ld x1 rH1) (View.ld x4 rU1) (View.ld x5 rB))
    (k0_pay7 (View.ld x0 rA) (View.ld x3 rW) (View.ld x1 rH0) (View.ld x4 rU0) (View.ld x1 rH1) (View.ld x4 rU1) (View.ld x5 rB))
    (k0_pay8 (View.ld x0 rA) (View.ld x3 rW) (View.ld x1 rH0) (View.ld x4 rU0) (View.ld x1 rH1) (View.ld x4 rU1) (View.ld x5 rB))
    (View.ld x6 rP)⟩]

/-- The one store of an output window is through the whole buffer, so it covers it. -/
theorem coverO (p0 : Vec F S1024x512 .f32) (y : S1024x512.Idx) :
    ∃ pc ∈ ([⟨rO, p0⟩] : List (View.Piece (Elt F) S1024x512 .f32)), y ∈ pc.1.set :=
  View.cover_of_tiled [⟨rO, p0⟩] S1024x512.size (by rfl) y

/-! ## The pipeline's proof data -/

/-- The proof data of the pipeline on core `c`: the arrays as the region finds them; after the body at point `t`
    each input's buffer at its block and each output's at its store over the input blocks; the invariant the
    untouched rest (scoped buffers that stage nothing, the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body's triple -/

set_option maxHeartbeats 1000000 in
/-- The kernel body on whole staging memrefs, the seven inputs' at read contents `x0 … x6` and the two outputs' at
    anything, runs to the continuation holding the inputs' as they were and each output's at its store over them.
    The body is its skeleton of loads and stores over named payloads; the loads read the inputs' contents through
    their rectangles, the two loads of the outputs' buffers read values nothing uses, and each output's one store,
    through its whole buffer, leaves what the canon of that store names. -/
theorem sound_kernel (c : Dev nD) (E : Set ℕ) (i : grid0.Coords) (arg1 : Memref sig .tc .vmem S1024x128 .f32) (harg1 : arg1.IsWhole) (arg2 : Memref sig .tc .vmem S2x1024x512 .f32) (harg2 : arg2.IsWhole) (arg3 : Memref sig .tc .vmem S2x1024x512 .f32) (harg3 : arg3.IsWhole) (arg4 : Memref sig .tc .vmem S128x2560 .bf16) (harg4 : arg4.IsWhole) (arg5 : Memref sig .tc .vmem S2x512x2560 .bf16) (harg5 : arg5.IsWhole) (arg6 : Memref sig .tc .vmem S1x2560 .f32) (harg6 : arg6.IsWhole) (arg7 : Memref sig .tc .vmem S1x512 .f32) (harg7 : arg7.IsWhole) (arg8 : Memref sig .tc .vmem S1024x512 .f32) (harg8 : arg8.IsWhole) (arg9 : Memref sig .tc .vmem S1024x512 .f32) (harg9 : arg9.IsWhole)
    (x0 : Vec F S1024x128 .f32) (x1 : Vec F S2x1024x512 .f32) (x2 : Vec F S2x1024x512 .f32) (x3 : Vec F S128x2560 .bf16) (x4 : Vec F S2x512x2560 .bf16) (x5 : Vec F S1x2560 .f32) (x6 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__tree_lstm_kernel i arg1 harg1 arg2 harg2 arg3 harg3 arg4 harg4 arg5 harg5 arg6 harg6 arg7 harg7 arg8 harg8 arg9 harg9) K := by
  simp only [cc0__tree_lstm_kernel_eq_skeleton]; unfold cc0__tree_lstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverO _)
  iexists _; isplitr
  swap; · iexact H8
  ipureintro
  exact View.read_writes_eq_canon _ _ _ (coverO _)

/-! ## The body obligation, at a generic point -/

/-- What the body is called with at point `t`: the invariant, nothing owed, and each window's current staging
    buffer at what the pipeline put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies at the blocks; the
    invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the frame theorem's implicit arguments are found by unifying its conclusion with this one, which takes unfolding
-- plain definitions in a metavariable's type
set_option backward.isDefEq.respectTransparency.types false in
/-- From any memory with zero counters, every weakly fair execution of @main on the TensorCore terminates, and every
    final state has each array of the pipeline at what the proof data computes and every other unscoped buffer as
    the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without fault and its twelve argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Fr

end
-- ==== Proof.BlockReads.lean ====
/-
  What the kernel body's loads read at grid point t, entry by entry.

  Point t's blocks are rows [1024 t, 1024 t + 1024) of the label array and of each child's hidden and cell arrays;
  the fused weights, the bias row and the forget-bias row are staged whole at every point. So a load of the label block
  at (p, k) reads the label array at (1024 t + p, k), a load of child g's hidden or cell block at (p, k) reads that
  array at (g, 1024 t + p, k), and the loads of the staged weights read them where they stand.
-/
import proofs.«100941_j84189948936634_2_alg».proof.Proof.KernelIdealFrame
import Idealize.ShloMosaic.Lib.ValueIdx
import Idealize.ShloMosaic.Lib.Pipeline.Value

noncomputable section

namespace Cert.KernelIdeal.Val

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (c : Dev nD)

/-- The grid has sixteen points. -/
theorem tlt (t : Fin cfg0.N) : t.val < 16 := lt_of_lt_of_eq t.isLt N_0

/-- The printed index maps over the grid: the three batched inputs and the two outputs move with the point along the batch
    axis, everything else stays at block zero. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The label block at (p, k) is the label array at (1024 t + p, k). -/
theorem ldA (t : Fin cfg0.N) (p : Fin 1024) (k : Fin 128) :
    View.ld (iblk m c 0 t) rA (ix2 p k)
      = V m c main_arg0 (ix2 (⟨t.val * 1024 + p.val, by have := tlt t; omega⟩ : Fin 16384) k) := by
  obtain ⟨e0, e1, -⟩ := idx_facts t
  show V m c main_arg0 (((cfg0.win 0).blk t).view.emb (rA.idx (ix2 p k))) = _
  refine congrArg _ (funext fun a => Fin.ext ?_)
  match a with
  | ⟨0, _⟩ => show win0_0.index t (0 : Fin 2) * 1024 + 1 * (0 + 1 * p.val) = t.val * 1024 + p.val; omega
  | ⟨1, _⟩ => show win0_0.index t (1 : Fin 2) * 128 + 1 * (0 + 1 * k.val) = k.val; omega

/-- Child 0's hidden block at (p, k) is the hidden array at (0, 1024 t + p, k). -/
theorem ldH0 (t : Fin cfg0.N) (p : Fin 1024) (k : Fin 512) :
    View.ld (iblk m c 1 t) rH0 (ix3 (0 : Fin 1) p k)
      = V m c main_arg1 (ix3 (0 : Fin 2) (⟨t.val * 1024 + p.val, by have := tlt t; omega⟩ : Fin 16384) k) := by
  obtain ⟨-, -, e10, e11, e12, e20, e21, e22, -⟩ := idx_facts t
  show V m c main_arg1 (((cfg0.win 1).blk t).view.emb (rH0.idx (ix3 (0 : Fin 1) p k))) = _
  refine congrArg _ (funext fun a => Fin.ext ?_)
  match a with
  | ⟨0, _⟩ => show win0_1.index t (0 : Fin 3) * 2 + 1 * (0 + 1 * 0) = 0; omega
  | ⟨1, _⟩ => show win0_1.index t (1 : Fin 3) * 1024 + 1 * (0 + 1 * p.val) = t.val * 1024 + p.val; omega
  | ⟨2, _⟩ => show win0_1.index t (2 : Fin 3) * 512 + 1 * (0 + 1 * k.val) = k.val; omega

/-- Child 1's hidden block at (p, k) is the hidden array at (1, 1024 t + p, k). -/
theorem ldH1 (t : Fin cfg0.N) (p : Fin 1024) (k : Fin 512) :
    View.ld (iblk m c 1 t) rH1 (ix3 (0 : Fin 1) p k)
      = V m c main_arg1 (ix3 (1 : Fin 2) (⟨t.val * 1024 + p.val, by have := tlt t; omega⟩ : Fin 16384) k) := by
  obtain ⟨-, -, e10, e11, e12, e20, e21, e22, -⟩ := idx_facts t
  show V m c main_arg1 (((cfg0.win 1).blk t).view.emb (rH1.idx (ix3 (0 : Fin 1) p k))) = _
  refine congrArg _ (funext fun a => Fin.ext ?_)
  match a with
  | ⟨0, _⟩ => show win0_1.index t (0 : Fin 3) * 2 + 1 * (1 + 1 * 0) = 1; omega
  | ⟨1, _⟩ => show win0_1.index t (1 : Fin 3) * 1024 + 1 * (0 + 1 * p.val) = t.val * 1024 + p.val; omega
  | ⟨2, _⟩ => show win0_1.index t (2 : Fin 3) * 512 + 1 * (0 + 1 * k.val) = k.val; omega

/-- Child 0's cell block at (p, k) is the cell array at (0, 1024 t + p, k). -/
theorem ldC0 (t : Fin cfg0.N) (p : Fin 1024) (k : Fin 512) :
    View.ld (iblk m c 2 t) rH0 (ix3 (0 : Fin 1) p k)
      = V m c main_arg2 (ix3 (0 : Fin 2) (⟨t.val * 1024 + p.val, by have := tlt t; omega⟩ : Fin 16384) k) := by
  obtain ⟨-, -, e10, e11, e12, e20, e21, e22, -⟩ := idx_facts t
  show V m c main_arg2 (((cfg0.win 2).blk t).view.emb (rH0.idx (ix3 (0 : Fin 1) p k))) = _
  refine congrArg _ (funext fun a => Fin.ext ?_)
  match a with
  | ⟨0, _⟩ => show win0_2.index t (0 : Fin 3) * 2 + 1 * (0 + 1 * 0) = 0; omega
  | ⟨1, _⟩ => show win0_2.index t (1 : Fin 3) * 1024 + 1 * (0 + 1 * p.val) = t.val * 1024 + p.val; omega
  | ⟨2, _⟩ => show win0_2.index t (2 : Fin 3) * 512 + 1 * (0 + 1 * k.val) = k.val; omega

/-- Child 1's cell block at (p, k) is the cell array at (1, 1024 t + p, k). -/
theorem ldC1 (t : Fin cfg0.N) (p : Fin 1024) (k : Fin 512) :
    View.ld (iblk m c 2 t) rH1 (ix3 (0 : Fin 1) p k)
      = V m c main_arg2 (ix3 (1 : Fin 2) (⟨t.val * 1024 + p.val, by have := tlt t; omega⟩ : Fin 16384) k) := by
  obtain ⟨-, -, e10, e11, e12, e20, e21, e22, -⟩ := idx_facts t
  show V m c main_arg2 (((cfg0.win 2).blk t).view.emb (rH1.idx (ix3 (0 : Fin 1) p k))) = _
  refine congrArg _ (funext fun a => Fin.ext ?_)
  match a with
  | ⟨0, _⟩ => show win0_2.index t (0 : Fin 3) * 2 + 1 * (1 + 1 * 0) = 1; omega
  | ⟨1, _⟩ => show win0_2.index t (1 : Fin 3) * 1024 + 1 * (0 + 1 * p.val) = t.val * 1024 + p.val; omega
  | ⟨2, _⟩ => show win0_2.index t (2 : Fin 3) * 512 + 1 * (0 + 1 * k.val) = k.val; omega

/-- The staged label weights are read where they stand. -/
theorem ldW (t : Fin cfg0.N) (k : Fin 128) (q : Fin 2560) :
    View.ld (iblk m c 3 t) rW (ix2 k q) = V m c main_v14 (ix2 k q) := by
  obtain ⟨-, -, -, -, -, -, -, -, e30, e31, -⟩ := idx_facts t
  show V m c main_v14 (((cfg0.win 3).blk t).view.emb (rW.idx (ix2 k q))) = _
  refine congrArg _ (funext fun a => Fin.ext ?_)
  match a with
  | ⟨0, _⟩ => show win0_3.index t (0 : Fin 2) * 128 + 1 * (0 + 1 * k.val) = k.val; omega
  | ⟨1, _⟩ => show win0_3.index t (1 : Fin 2) * 2560 + 1 * (0 + 1 * q.val) = q.val; omega

/-- Child 0's staged weights are read where they stand. -/
theorem ldU0 (t : Fin cfg0.N) (k : Fin 512) (q : Fin 2560) :
    View.ld (iblk m c 4 t) rU0 (ix3 (0 : Fin 1) k q) = V m c main_v20 (ix3 (0 : Fin 2) k q) := by
  obtain ⟨-, -, -, -, -, -, -, -, -, -, e40, e41, e42, -⟩ := idx_facts t
  show V m c main_v20 (((cfg0.win 4).blk t).view.emb (rU0.idx (ix3 (0 : Fin 1) k q))) = _
  refine congrArg _ (funext fun a => Fin.ext ?_)
  match a with
  | ⟨0, _⟩ => show win0_4.index t (0 : Fin 3) * 2 + 1 * (0 + 1 * 0) = 0; omega
  | ⟨1, _⟩ => show win0_4.index t (1 : Fin 3) * 512 + 1 * (0 + 1 * k.val) = k.val; omega
  | ⟨2, _⟩ => show win0_4.index t (2 : Fin 3) * 2560 + 1 * (0 + 1 * q.val) = q.val; omega

/-- Child 1's staged weights are read where they stand. -/
theorem ldU1 (t : Fin cfg0.N) (k : Fin 512) (q : Fin 2560) :
    View.ld (iblk m c 4 t) rU1 (ix3 (0 : Fin 1) k q) = V m c main_v20 (ix3 (1 : Fin 2) k q) := by
  obtain ⟨-, -, -, -, -, -, -, -, -, -, e40, e41, e42, -⟩ := idx_facts t
  show V m c main_v20 (((cfg0.win 4).blk t).view.emb (rU1.idx (ix3 (0 : Fin 1) k q))) = _
  refine congrArg _ (funext fun a => Fin.ext ?_)
  match a with
  | ⟨0, _⟩ => show win0_4.index t (0 : Fin 3) * 2 + 1 * (1 + 1 * 0) = 1; omega
  | ⟨1, _⟩ => show win0_4.index t (1 : Fin 3) * 512 + 1 * (0 + 1 * k.val) = k.val; omega
  | ⟨2, _⟩ => show win0_4.index t (2 : Fin 3) * 2560 + 1 * (0 + 1 * q.val) = q.val; omega

/-- The staged bias row is read where it stands. -/
theorem ldB (t : Fin cfg0.N) (q : Fin 2560) :
    View.ld (iblk m c 5 t) rB (ix2 (0 : Fin 1) q) = V m c main_v23 (ix2 (0 : Fin 1) q) := by
  obtain ⟨-, -, -, -, -, -, -, -, -, -, -, -, -, e50, e51, -⟩ := idx_facts t
  show V m c main_v23 (((cfg0.win 5).blk t).view.emb (rB.idx (ix2 (0 : Fin 1) q))) = _
  refine congrArg _ (funext fun a => Fin.ext ?_)
  match a with
  | ⟨0, _⟩ => show win0_5.index t (0 : Fin 2) * 1 + 1 * (0 + 1 * 0) = 0; omega
  | ⟨1, _⟩ => show win0_5.index t (1 : Fin 2) * 2560 + 1 * (0 + 1 * q.val) = q.val; omega

/-- The staged forget-bias row is read where it stands. -/
theorem ldP (t : Fin cfg0.N) (j : Fin 512) :
    View.ld (iblk m c 6 t) rP (ix2 (0 : Fin 1) j) = V m c main_v24 (ix2 (0 : Fin 1) j) := by
  obtain ⟨-, -, -, -, -, -, -, -, -, -, -, -, -, -, -, e60, e61, -⟩ := idx_facts t
  show V m c main_v24 (((cfg0.win 6).blk t).view.emb (rP.idx (ix2 (0 : Fin 1) j))) = _
  refine congrArg _ (funext fun a => Fin.ext ?_)
  match a with
  | ⟨0, _⟩ => show win0_6.index t (0 : Fin 2) * 1 + 1 * (0 + 1 * 0) = 0; omega
  | ⟨1, _⟩ => show win0_6.index t (1 : Fin 2) * 512 + 1 * (0 + 1 * j.val) = j.val; omega

end Cert.KernelIdeal.Val

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.Payload.lean ====
/-
  What the kernel body computes on one block of 1024 batch rows, entry by entry, over the extended reals.

  The accumulator at row p and column q of the 2560 gate columns is the label block's row p against column q of
  the label weights, plus each child's hidden block's row p against column q of that child's weights, plus the
  bias row at q. The five gates are the column ranges [0, 512), [512, 1024), … of the accumulator. The stored
  next cell at (p, j) is  σ(acc(p, j)) · tanh(acc(p, 1024 + j)) + (σ(acc(p, 1536 + j)) · c₀ + σ(acc(p, 2048 + j)) · c₁)
  + fb(j) · (c₀ + c₁)  and the stored output is tanh(σ(acc(p, 512 + j)) · next cell).
-/
import proofs.«100941_j84189948936634_2_alg».proof.Proof.Gen.KernelIdeal.Skeleton
import proofs.«100941_j84189948936634_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.LibPlainMatmul
open scoped BigOperators

/-- The label block against the label weights, at (p, q). -/
theorem mm_label (v0 : Vec Ideal S1024x128 .f32) (v2 : Vec Ideal S128x2560 .bf16) (p : Fin 1024) (q : Fin 2560) :
    matmul (F := Ideal) dot_S1024x128_S128x2560_S1024x2560_1_0_0_1_n_n none (truncf .bf16 v0 bitsLt_bf16_f32)
        (shapeCast S128x2560 v2 shapeCasts_S128x2560_S128x2560 : FVec Ideal S128x2560 .bf16) (constant S1024x2560 .f32 0x00000000#32) (ix2 p q)
      = ∑ k : Fin 128, v0 (ix2 p k) * v2 (ix2 k q) := by
  refine (matmul_zero_plain _ _ _ p q).trans ?_
  refine Finset.sum_congr rfl fun k _ => ?_
  rw [shapeCast_self]
  rfl

/-- One child's hidden block against that child's weights, at (p, q). -/
theorem mm_child (v5 : Vec Ideal S1x1024x512 .f32) (v8 : Vec Ideal S1x512x2560 .bf16) (p : Fin 1024) (q : Fin 2560) :
    matmul (F := Ideal) dot_S1024x512_S512x2560_S1024x2560_1_0_0_1_n_n none
        (truncf .bf16 (shapeCast S1024x512 v5 shapeCasts_S1x1024x512_S1024x512 : FVec Ideal S1024x512 .f32) bitsLt_bf16_f32)
        (shapeCast S512x2560 v8 shapeCasts_S1x512x2560_S512x2560 : FVec Ideal S512x2560 .bf16) (constant S1024x2560 .f32 0x00000000#32) (ix2 p q)
      = ∑ k : Fin 512, v5 (ix3 (0 : Fin 1) p k) * v8 (ix3 (0 : Fin 1) k q) := by
  refine (matmul_zero_plain _ _ _ p q).trans ?_
  refine Finset.sum_congr rfl fun k _ => ?_
  exact congrArg₂ (· * ·) (shapeCast_1ab_ab_apply v5 _ p k) (shapeCast_1ab_ab_apply v8 _ k q)

/-- The bias row spread over the block's rows, at (p, q). -/
theorem bias_apply (v23 : Vec Ideal S1x2560 .f32) (p : Fin 1024) (q : Fin 2560) :
    broadcastTo S1024x2560 (shapeCast S1x2560 v23 shapeCasts_S1x2560_S1x2560) broadcasts_S1x2560_S1024x2560 (ix2 p q)
      = v23 (ix2 (0 : Fin 1) q) := by
  refine (broadcastTo_1b_ab_apply _ _ p q).trans ?_
  rw [shapeCast_self]

/-- The accumulator at (p, q). -/
theorem acc_apply (v0 : Vec Ideal S1024x128 .f32) (v2 : Vec Ideal S128x2560 .bf16) (v5 : Vec Ideal S1x1024x512 .f32)
    (v8 : Vec Ideal S1x512x2560 .bf16) (v14 : Vec Ideal S1x1024x512 .f32) (v17 : Vec Ideal S1x512x2560 .bf16)
    (v23 : Vec Ideal S1x2560 .f32) (p : Fin 1024) (q : Fin 2560) :
    k0_pay5 (F := Ideal) v0 v2 v5 v8 v14 v17 v23 (ix2 p q)
      = ((∑ k : Fin 128, v0 (ix2 p k) * v2 (ix2 k q) + ∑ k : Fin 512, v5 (ix3 (0 : Fin 1) p k) * v8 (ix3 (0 : Fin 1) k q))
          + ∑ k : Fin 512, v14 (ix3 (0 : Fin 1) p k) * v17 (ix3 (0 : Fin 1) k q)) + v23 (ix2 (0 : Fin 1) q) := by
  unfold k0_pay5
  exact congrArg₂ (· + ·) (congrArg₂ (· + ·) (congrArg₂ (· + ·) (mm_label v0 v2 p q) (mm_child v5 v8 p q)) (mm_child v14 v17 p q))
    (bias_apply v23 p q)

/-- The stored next cell at (p, j), from the accumulator, the two children's cell blocks and the forget bias row. -/
theorem pay1_apply (v13 v22 : FVec Ideal S1024x512 .f32) (v26 : FVec Ideal S1024x2560 .f32) (v28 v31 : FVec Ideal S1024x512 .f32)
    (v45 : Vec Ideal S1x512 .f32) (p : Fin 1024) (j : Fin 512) :
    k0_pay1 (F := Ideal) v13 v22 v26 v28 v31 v45 (ix2 p j)
      = v28 (ix2 p j) * Ideal.tanh (v31 (ix2 p j))
          + (Ideal.logistic (v26 (ix2 p (⟨1536 + j.val, by omega⟩ : Fin 2560))) * v13 (ix2 p j)
              + Ideal.logistic (v26 (ix2 p (⟨2048 + j.val, by omega⟩ : Fin 2560))) * v22 (ix2 p j))
          + v45 (ix2 (0 : Fin 1) j) * (v13 (ix2 p j) + v22 (ix2 p j)) := by
  have e35 : extractStridedSlice S1024x512 ![0, 1536] v26 slices_S1024x2560_o0_1536_S1024x512 (ix2 p j)
      = v26 (ix2 p (⟨1536 + j.val, by omega⟩ : Fin 2560)) := slice2_axis1_apply 1536 v26 _ p j _ rfl
  have e40 : extractStridedSlice S1024x512 ![0, 2048] v26 slices_S1024x2560_o0_2048_S1024x512 (ix2 p j)
      = v26 (ix2 p (⟨2048 + j.val, by omega⟩ : Fin 2560)) := slice2_axis1_apply 2048 v26 _ p j _ rfl
  have e47 : broadcastTo S1024x512 (shapeCast S1x512 v45 shapeCasts_S1x512_S1x512) broadcasts_S1x512_S1024x512 (ix2 p j)
      = v45 (ix2 (0 : Fin 1) j) := (broadcastTo_1b_ab_apply _ _ p j).trans (by rw [shapeCast_self])
  have ez : (Scalar.ofBits (F := Ideal) .f32 0x00000000#32 : EReal) = 0 := Ideal.ofBits_zero_f32
  unfold k0_pay1
  show (v28 (ix2 p j) * Ideal.tanh (v31 (ix2 p j))
      + ((Scalar.ofBits (F := Ideal) .f32 0x00000000#32
            + Ideal.logistic (extractStridedSlice S1024x512 ![0, 1536] v26 slices_S1024x2560_o0_1536_S1024x512 (ix2 p j)) * v13 (ix2 p j))
          + Ideal.logistic (extractStridedSlice S1024x512 ![0, 2048] v26 slices_S1024x2560_o0_2048_S1024x512 (ix2 p j)) * v22 (ix2 p j)))
      + broadcastTo S1024x512 (shapeCast S1x512 v45 shapeCasts_S1x512_S1x512) broadcasts_S1x512_S1024x512 (ix2 p j)
          * ((Scalar.ofBits (F := Ideal) .f32 0x00000000#32 + v13 (ix2 p j)) + v22 (ix2 p j)) = _
  rw [e35, e40, e47, ez, zero_add, zero_add]

/-- The stored output at (p, j): tanh of the output gate times the stored next cell. -/
theorem pay2_apply (v13 v22 : FVec Ideal S1024x512 .f32) (v26 : FVec Ideal S1024x2560 .f32) (v28 v30 v31 : FVec Ideal S1024x512 .f32)
    (v45 : Vec Ideal S1x512 .f32) (p : Fin 1024) (j : Fin 512) :
    k0_pay2 (F := Ideal) v13 v22 v26 v28 v30 v31 v45 (ix2 p j)
      = Ideal.tanh (v30 (ix2 p j) * k0_pay1 (F := Ideal) v13 v22 v26 v28 v31 v45 (ix2 p j)) := rfl

/-- A gate's pre-activation is the accumulator cut at the gate's column block. -/
theorem gate_slice (v26 : FVec Ideal S1024x2560 .f32) (p : Fin 1024) (j : Fin 512) :
    extractStridedSlice S1024x512 ![0, 0] v26 slices_S1024x2560_o0_0_S1024x512 (ix2 p j) = v26 (ix2 p (⟨j.val, by omega⟩ : Fin 2560))
    ∧ extractStridedSlice S1024x512 ![0, 512] v26 slices_S1024x2560_o0_512_S1024x512 (ix2 p j) = v26 (ix2 p (⟨512 + j.val, by omega⟩ : Fin 2560))
    ∧ extractStridedSlice S1024x512 ![0, 1024] v26 slices_S1024x2560_o0_1024_S1024x512 (ix2 p j) = v26 (ix2 p (⟨1024 + j.val, by omega⟩ : Fin 2560)) :=
  ⟨slice2_axis1_apply 0 v26 _ p j _ (Nat.zero_add _).symm, slice2_axis1_apply 512 v26 _ p j _ rfl, slice2_axis1_apply 1024 v26 _ p j _ rfl⟩

/-- A child's cell block, its unit axis dropped, at (p, j). -/
theorem pay3_apply (v12 : Vec Ideal S1x1024x512 .f32) (p : Fin 1024) (j : Fin 512) :
    k0_pay3 (F := Ideal) v12 (ix2 p j) = v12 (ix3 (0 : Fin 1) p j) := shapeCast_1ab_ab_apply v12 _ p j

theorem pay4_apply (v21 : Vec Ideal S1x1024x512 .f32) (p : Fin 1024) (j : Fin 512) :
    k0_pay4 (F := Ideal) v21 (ix2 p j) = v21 (ix3 (0 : Fin 1) p j) := shapeCast_1ab_ab_apply v21 _ p j

section Gates
variable (v0 : Vec Ideal S1024x128 .f32) (v2 : Vec Ideal S128x2560 .bf16) (v5 : Vec Ideal S1x1024x512 .f32)
    (v8 : Vec Ideal S1x512x2560 .bf16) (v14 : Vec Ideal S1x1024x512 .f32) (v17 : Vec Ideal S1x512x2560 .bf16)
    (v23 : Vec Ideal S1x2560 .f32) (p : Fin 1024) (j : Fin 512)

/-- The input gate at (p, j): the logistic function of the accumulator at column j. -/
theorem pay6_apply : k0_pay6 (F := Ideal) v0 v2 v5 v8 v14 v17 v23 (ix2 p j)
    = Ideal.logistic (k0_pay5 (F := Ideal) v0 v2 v5 v8 v14 v17 v23 (ix2 p (⟨j.val, by omega⟩ : Fin 2560))) :=
  congrArg Ideal.logistic (gate_slice (k0_pay5 (F := Ideal) v0 v2 v5 v8 v14 v17 v23) p j).1

/-- The output gate at (p, j): the logistic function of the accumulator at column 512 + j. -/
theorem pay7_apply : k0_pay7 (F := Ideal) v0 v2 v5 v8 v14 v17 v23 (ix2 p j)
    = Ideal.logistic (k0_pay5 (F := Ideal) v0 v2 v5 v8 v14 v17 v23 (ix2 p (⟨512 + j.val, by omega⟩ : Fin 2560))) :=
  congrArg Ideal.logistic (gate_slice (k0_pay5 (F := Ideal) v0 v2 v5 v8 v14 v17 v23) p j).2.1

/-- The update's pre-activation at (p, j): the accumulator at column 1024 + j. -/
theorem pay8_apply : k0_pay8 (F := Ideal) v0 v2 v5 v8 v14 v17 v23 (ix2 p j)
    = k0_pay5 (F := Ideal) v0 v2 v5 v8 v14 v17 v23 (ix2 p (⟨1024 + j.val, by omega⟩ : Fin 2560)) :=
  (gate_slice (k0_pay5 (F := Ideal) v0 v2 v5 v8 v14 v17 v23) p j).2.2

end Gates

end Cert.KernelIdeal.Pay

end
-- ==== Proof.Spec.lean ====
/-
  The tree-structured LSTM cell as ONE function of the argument arrays, entry by entry, over the extended reals.

  For batch row b the input row is the label row followed by the two children's hidden rows,
  x(b) = [label(b) | h₀(b) | h₁(b)] of length 128 + 512 + 512 = 1152. Three gates are affine in x(b): the input and
  output gates through the logistic function and the update through tanh. Child g's forget gate is the logistic
  function of the product of x(b) with the row [W_fl(j) | W_fs(g, 0, j) | W_fs(g, 1, j)], no bias inside. The next
  cell at (b, j) is  i·u + (f₀·c₀ + f₁·c₁) + forget_bias(j)·(c₀ + c₁)  and the output is tanh(o · next cell).

  Also here: a sum over the 1152 positions of the input row is the sum over the label's 128 positions plus the
  sums over each child's 512 positions — only commutativity and associativity of addition, so it holds of every
  extended real, infinite ones included.
-/
import Idealize.ShloMosaic.PureOps.Ideal
import Idealize.ShloMosaic.PureOps.Ideal.Laws
import Idealize.ShloMosaic.Lib.ValueIdx

noncomputable section

namespace Cert.TreeCell

open Idealize.ShloMosaic Idealize.ShloMosaic.ValueIdx
open scoped BigOperators

/-- Position k of the input row of batch row b: the label for k < 128, then child (k − 128) / 512 at (k − 128) % 512. -/
def xrow (label : (⟨2, ![16384, 128]⟩ : Shape).Idx → EReal) (hs : (⟨3, ![2, 16384, 512]⟩ : Shape).Idx → EReal)
    (b : Fin 16384) (k : Fin 1152) : EReal :=
  if h : k.val < 128 then label (ix2 b (⟨k.val, h⟩ : Fin 128))
  else hs (ix3 (⟨(k.val - 128) / 512, by have := k.isLt; omega⟩ : Fin 2) b (⟨(k.val - 128) % 512, by omega⟩ : Fin 512))

/-- Position k of child g's forget row for hidden unit j: W_fl(j, k) for k < 128, then W_fs(g, (k − 128) / 512, j, (k − 128) % 512). -/
def frow (Wfl : (⟨2, ![512, 128]⟩ : Shape).Idx → EReal) (Wfs : (⟨4, ![2, 2, 512, 512]⟩ : Shape).Idx → EReal)
    (g : Fin 2) (j : Fin 512) (k : Fin 1152) : EReal :=
  if h : k.val < 128 then Wfl (ix2 j (⟨k.val, h⟩ : Fin 128))
  else Wfs (ix4 g (⟨(k.val - 128) / 512, by have := k.isLt; omega⟩ : Fin 2) j (⟨(k.val - 128) % 512, by omega⟩ : Fin 512))

/-- Row j of a 512 × 1152 weight matrix. -/
def wrow (W : (⟨2, ![512, 1152]⟩ : Shape).Idx → EReal) (j : Fin 512) (k : Fin 1152) : EReal := W (ix2 j k)

/-- The product of a row of 1152 entries with a weight row. -/
def lin (x w : Fin 1152 → EReal) : EReal := ∑ k : Fin 1152, x k * w k

/-- The next cell state at (b, j). -/
def cell (label : (⟨2, ![16384, 128]⟩ : Shape).Idx → EReal) (hs cs : (⟨3, ![2, 16384, 512]⟩ : Shape).Idx → EReal)
    (Wi : (⟨2, ![512, 1152]⟩ : Shape).Idx → EReal) (bi : (⟨1, ![512]⟩ : Shape).Idx → EReal)
    (Wu : (⟨2, ![512, 1152]⟩ : Shape).Idx → EReal) (bu : (⟨1, ![512]⟩ : Shape).Idx → EReal)
    (Wfl : (⟨2, ![512, 128]⟩ : Shape).Idx → EReal) (Wfs : (⟨4, ![2, 2, 512, 512]⟩ : Shape).Idx → EReal)
    (fb : (⟨1, ![512]⟩ : Shape).Idx → EReal) (b : Fin 16384) (j : Fin 512) : EReal :=
  Ideal.logistic (lin (xrow label hs b) (wrow Wi j) + bi (ix1 j)) * Ideal.tanh (lin (xrow label hs b) (wrow Wu j) + bu (ix1 j))
    + (Ideal.logistic (lin (xrow label hs b) (frow Wfl Wfs 0 j)) * cs (ix3 (0 : Fin 2) b j)
        + Ideal.logistic (lin (xrow label hs b) (frow Wfl Wfs 1 j)) * cs (ix3 (1 : Fin 2) b j))
    + fb (ix1 j) * (cs (ix3 (0 : Fin 2) b j) + cs (ix3 (1 : Fin 2) b j))

/-- The first result array: the next cell state. -/
def nextCell (label : (⟨2, ![16384, 128]⟩ : Shape).Idx → EReal) (hs cs : (⟨3, ![2, 16384, 512]⟩ : Shape).Idx → EReal)
    (Wi : (⟨2, ![512, 1152]⟩ : Shape).Idx → EReal) (bi : (⟨1, ![512]⟩ : Shape).Idx → EReal)
    (Wu : (⟨2, ![512, 1152]⟩ : Shape).Idx → EReal) (bu : (⟨1, ![512]⟩ : Shape).Idx → EReal)
    (Wfl : (⟨2, ![512, 128]⟩ : Shape).Idx → EReal) (Wfs : (⟨4, ![2, 2, 512, 512]⟩ : Shape).Idx → EReal)
    (fb : (⟨1, ![512]⟩ : Shape).Idx → EReal) : (⟨2, ![16384, 512]⟩ : Shape).Idx → EReal :=
  fun i => cell label hs cs Wi bi Wu bu Wfl Wfs fb (i 0) (i 1)

/-- The second result array: tanh of the output gate times the next cell state. -/
def hidden (label : (⟨2, ![16384, 128]⟩ : Shape).Idx → EReal) (hs cs : (⟨3, ![2, 16384, 512]⟩ : Shape).Idx → EReal)
    (Wi : (⟨2, ![512, 1152]⟩ : Shape).Idx → EReal) (bi : (⟨1, ![512]⟩ : Shape).Idx → EReal)
    (Wo : (⟨2, ![512, 1152]⟩ : Shape).Idx → EReal) (bo : (⟨1, ![512]⟩ : Shape).Idx → EReal)
    (Wu : (⟨2, ![512, 1152]⟩ : Shape).Idx → EReal) (bu : (⟨1, ![512]⟩ : Shape).Idx → EReal)
    (Wfl : (⟨2, ![512, 128]⟩ : Shape).Idx → EReal) (Wfs : (⟨4, ![2, 2, 512, 512]⟩ : Shape).Idx → EReal)
    (fb : (⟨1, ![512]⟩ : Shape).Idx → EReal) : (⟨2, ![16384, 512]⟩ : Shape).Idx → EReal :=
  fun i => Ideal.tanh (Ideal.logistic (lin (xrow label hs (i 0)) (wrow Wo (i 1)) + bo (ix1 (i 1)))
    * cell label hs cs Wi bi Wu bu Wfl Wfs fb (i 0) (i 1))

/-- The fused weight matrix at input position k and gate column q: the columns are the input, output and update gates'
    512 units each, then child 0's and child 1's forget units; column q of gate block q / 512 is unit q % 512. -/
def wall (Wi Wo Wu : (⟨2, ![512, 1152]⟩ : Shape).Idx → EReal)
    (Wfl : (⟨2, ![512, 128]⟩ : Shape).Idx → EReal) (Wfs : (⟨4, ![2, 2, 512, 512]⟩ : Shape).Idx → EReal)
    (k : Fin 1152) (q : Fin 2560) : EReal :=
  if h0 : q.val < 512 then wrow Wi ⟨q.val, h0⟩ k
  else if h1 : q.val < 1024 then wrow Wo ⟨q.val - 512, by omega⟩ k
  else if h2 : q.val < 1536 then wrow Wu ⟨q.val - 1024, by omega⟩ k
  else if h3 : q.val < 2048 then frow Wfl Wfs 0 ⟨q.val - 1536, by omega⟩ k
  else frow Wfl Wfs 1 ⟨q.val - 2048, by have := q.isLt; omega⟩ k

/-- The fused bias row at gate column q: the three affine gates' biases, then zero on the forget columns. -/
def ball (bi bo bu : (⟨1, ![512]⟩ : Shape).Idx → EReal) (q : Fin 2560) : EReal :=
  if h0 : q.val < 512 then bi (ix1 ⟨q.val, h0⟩)
  else if h1 : q.val < 1024 then bo (ix1 ⟨q.val - 512, by omega⟩)
  else if h2 : q.val < 1536 then bu (ix1 ⟨q.val - 1024, by omega⟩)
  else 0

/-- A sum over the 1152 positions of the input row, split at the label and at each child. -/
theorem sum_split (f : Fin 1152 → EReal) :
    ∑ k : Fin 1152, f k
      = (∑ k : Fin 128, f ⟨k.val, by omega⟩ + ∑ k : Fin 512, f ⟨128 + k.val, by omega⟩)
          + ∑ k : Fin 512, f ⟨640 + k.val, by omega⟩ := by
  have h1 := Fin.sum_univ_add (M := EReal) (a := 640) (b := 512) f
  have h2 := Fin.sum_univ_add (M := EReal) (a := 128) (b := 512) (fun i : Fin 640 => f (Fin.castAdd 512 i))
  rw [h1, h2]
  rfl

/-- The word of the float one denotes the real one. -/
theorem ofBits_one : Ideal.ofBits .f32 0x3F800000#32 = (1 : EReal) := by
  simp [Ideal.ofBits, Ideal.ieee]
  rw [← EReal.coe_mul, ← EReal.coe_one]
  congr 1
  norm_num

end Cert.TreeCell

end
-- ==== Proof.SpecLemmas.lean ====
/-
  Pure facts about the specification, none of them needing finiteness.

  * The product of an input row with a weight row, split at the label and at each child: the label's 128 positions,
    child 0's 512 positions from 128 on and child 1's from 640 on.
  * The fused weight matrix and the fused bias row read inside each of the five gate column blocks.
-/
import proofs.«100941_j84189948936634_2_alg».proof.Proof.Spec

noncomputable section

namespace Cert.TreeCell

open Idealize.ShloMosaic Idealize.ShloMosaic.ValueIdx
open scoped BigOperators

variable (label : (⟨2, ![16384, 128]⟩ : Shape).Idx → EReal) (hs : (⟨3, ![2, 16384, 512]⟩ : Shape).Idx → EReal)

theorem xrow_label (b : Fin 16384) (k : Fin 128) : xrow label hs b ⟨k.val, by omega⟩ = label (ix2 b k) := by
  unfold xrow
  rw [dif_pos (show k.val < 128 from k.isLt)]

theorem xrow_child0 (b : Fin 16384) (k : Fin 512) : xrow label hs b ⟨128 + k.val, by omega⟩ = hs (ix3 (0 : Fin 2) b k) := by
  unfold xrow
  rw [dif_neg (show ¬ (128 + k.val < 128) by omega)]
  refine congrArg hs (funext fun a => Fin.ext ?_)
  match a with
  | ⟨0, _⟩ => show (128 + k.val - 128) / 512 = 0; have := k.isLt; omega
  | ⟨1, _⟩ => rfl
  | ⟨2, _⟩ => show (128 + k.val - 128) % 512 = k.val; have := k.isLt; omega

theorem xrow_child1 (b : Fin 16384) (k : Fin 512) : xrow label hs b ⟨640 + k.val, by omega⟩ = hs (ix3 (1 : Fin 2) b k) := by
  unfold xrow
  rw [dif_neg (show ¬ (640 + k.val < 128) by omega)]
  refine congrArg hs (funext fun a => Fin.ext ?_)
  match a with
  | ⟨0, _⟩ => show (640 + k.val - 128) / 512 = 1; have := k.isLt; omega
  | ⟨1, _⟩ => rfl
  | ⟨2, _⟩ => show (640 + k.val - 128) % 512 = k.val; have := k.isLt; omega

/-- The product of an input row with a weight row, split at the label and at each child. -/
theorem lin_split (b : Fin 16384) (w : Fin 1152 → EReal) :
    lin (xrow label hs b) w
      = (∑ k : Fin 128, label (ix2 b k) * w ⟨k.val, by omega⟩ + ∑ k : Fin 512, hs (ix3 (0 : Fin 2) b k) * w ⟨128 + k.val, by omega⟩)
          + ∑ k : Fin 512, hs (ix3 (1 : Fin 2) b k) * w ⟨640 + k.val, by omega⟩ := by
  unfold lin
  rw [sum_split]
  simp only [xrow_label, xrow_child0, xrow_child1]

variable (Wi Wo Wu : (⟨2, ![512, 1152]⟩ : Shape).Idx → EReal)
  (Wfl : (⟨2, ![512, 128]⟩ : Shape).Idx → EReal) (Wfs : (⟨4, ![2, 2, 512, 512]⟩ : Shape).Idx → EReal)

theorem wall_i (k : Fin 1152) (j : Fin 512) : wall Wi Wo Wu Wfl Wfs k ⟨j.val, by omega⟩ = wrow Wi j k := by
  unfold wall
  rw [dif_pos (show j.val < 512 from j.isLt)]

theorem wall_o (k : Fin 1152) (j : Fin 512) : wall Wi Wo Wu Wfl Wfs k ⟨512 + j.val, by omega⟩ = wrow Wo j k := by
  unfold wall
  rw [dif_neg (show ¬ (512 + j.val < 512) by omega), dif_pos (show 512 + j.val < 1024 by omega)]
  exact congrArg (fun j' => wrow Wo j' k) (Fin.ext (by show 512 + j.val - 512 = j.val; omega))

theorem wall_u (k : Fin 1152) (j : Fin 512) : wall Wi Wo Wu Wfl Wfs k ⟨1024 + j.val, by omega⟩ = wrow Wu j k := by
  unfold wall
  rw [dif_neg (show ¬ (1024 + j.val < 512) by omega), dif_neg (show ¬ (1024 + j.val < 1024) by omega),
    dif_pos (show 1024 + j.val < 1536 by omega)]
  exact congrArg (fun j' => wrow Wu j' k) (Fin.ext (by show 1024 + j.val - 1024 = j.val; omega))

theorem wall_f0 (k : Fin 1152) (j : Fin 512) : wall Wi Wo Wu Wfl Wfs k ⟨1536 + j.val, by omega⟩ = frow Wfl Wfs 0 j k := by
  unfold wall
  rw [dif_neg (show ¬ (1536 + j.val < 512) by omega), dif_neg (show ¬ (1536 + j.val < 1024) by omega),
    dif_neg (show ¬ (1536 + j.val < 1536) by omega), dif_pos (show 1536 + j.val < 2048 by omega)]
  exact congrArg (fun j' => frow Wfl Wfs 0 j' k) (Fin.ext (by show 1536 + j.val - 1536 = j.val; omega))

theorem wall_f1 (k : Fin 1152) (j : Fin 512) : wall Wi Wo Wu Wfl Wfs k ⟨2048 + j.val, by omega⟩ = frow Wfl Wfs 1 j k := by
  unfold wall
  rw [dif_neg (show ¬ (2048 + j.val < 512) by omega), dif_neg (show ¬ (2048 + j.val < 1024) by omega),
    dif_neg (show ¬ (2048 + j.val < 1536) by omega), dif_neg (show ¬ (2048 + j.val < 2048) by omega)]
  exact congrArg (fun j' => frow Wfl Wfs 1 j' k) (Fin.ext (by show 2048 + j.val - 2048 = j.val; omega))

variable (bi bo bu : (⟨1, ![512]⟩ : Shape).Idx → EReal)

theorem ball_i (j : Fin 512) : ball bi bo bu ⟨j.val, by omega⟩ = bi (ix1 j) := by
  unfold ball
  rw [dif_pos (show j.val < 512 from j.isLt)]

theorem ball_o (j : Fin 512) : ball bi bo bu ⟨512 + j.val, by omega⟩ = bo (ix1 j) := by
  unfold ball
  rw [dif_neg (show ¬ (512 + j.val < 512) by omega), dif_pos (show 512 + j.val < 1024 by omega)]
  exact congrArg (fun j' => bo (ix1 j')) (Fin.ext (by show 512 + j.val - 512 = j.val; omega))

theorem ball_u (j : Fin 512) : ball bi bo bu ⟨1024 + j.val, by omega⟩ = bu (ix1 j) := by
  unfold ball
  rw [dif_neg (show ¬ (1024 + j.val < 512) by omega), dif_neg (show ¬ (1024 + j.val < 1024) by omega),
    dif_pos (show 1024 + j.val < 1536 by omega)]
  exact congrArg (fun j' => bu (ix1 j')) (Fin.ext (by show 1024 + j.val - 1024 = j.val; omega))

theorem ball_f0 (j : Fin 512) : ball bi bo bu ⟨1536 + j.val, by omega⟩ = 0 := by
  unfold ball
  rw [dif_neg (show ¬ (1536 + j.val < 512) by omega), dif_neg (show ¬ (1536 + j.val < 1024) by omega),
    dif_neg (show ¬ (1536 + j.val < 1536) by omega)]

theorem ball_f1 (j : Fin 512) : ball bi bo bu ⟨2048 + j.val, by omega⟩ = 0 := by
  unfold ball
  rw [dif_neg (show ¬ (2048 + j.val < 512) by omega), dif_neg (show ¬ (2048 + j.val < 1024) by omega),
    dif_neg (show ¬ (2048 + j.val < 1536) by omega)]

end Cert.TreeCell

end
-- ==== Proof.PointValue.lean ====
/-
  What grid point t stores, entry by entry, as the specification's cell and output at batch row 1024 t + p.

  The accumulator at (p, q) is the product of the input row of batch row 1024 t + p with column q of the fused weights plus
  the fused bias at q: the three sums of the body — label, child 0, child 1 — are the three stretches of the one sum
  over the 1152 input positions. Inside each gate's column block the fused weights and bias are that gate's own, and
  zero bias on the forget columns adds nothing.
-/
import proofs.«100941_j84189948936634_2_alg».proof.Proof.BlockReads
import proofs.«100941_j84189948936634_2_alg».proof.Proof.Payload
import proofs.«100941_j84189948936634_2_alg».proof.Proof.SpecLemmas

noncomputable section

namespace Cert.KernelIdeal.Val

open Cert.KernelIdeal Cert.KernelIdeal.Gen Cert.KernelIdeal.Fr Idealize.ShloMosaic Idealize.ShloMosaic.TcCoe Idealize.SL.Sem
open Idealize.ShloMosaic.ValueIdx
open scoped BigOperators

variable (m : (ℓ : Loc nD τ sig) → Buf (Elt Ideal) ℓ) (c : Dev nD)

/-- An argument array as launched. -/
abbrev arg (b : Ref sig .tc) : Buf (Elt Ideal) ((c : Thread nD τ).loc b) := m ((c : Thread nD τ).loc b)

/-- The fused weights of the launched arguments. -/
abbrev Wm : Fin 1152 → Fin 2560 → EReal :=
  Cert.TreeCell.wall (arg m c main_arg3) (arg m c main_arg5) (arg m c main_arg7) (arg m c main_arg9) (arg m c main_arg10)

/-- The fused bias of the launched arguments. -/
abbrev Bm : Fin 2560 → EReal := Cert.TreeCell.ball (arg m c main_arg4) (arg m c main_arg6) (arg m c main_arg8)

/-- Batch row 1024 t + p. -/
abbrev brow (t : Fin cfg0.N) (p : Fin 1024) : Fin 16384 := ⟨t.val * 1024 + p.val, by have := tlt t; omega⟩

section Point
variable (hWl : ∀ (k : Fin 128) (q : Fin 2560), V m c main_v14 (ix2 k q) = Wm m c ⟨k.val, by omega⟩ q)
  (hWc : ∀ (a : Fin 2) (k : Fin 512) (q : Fin 2560), V m c main_v20 (ix3 a k q) = Wm m c ⟨128 + 512 * a.val + k.val, by omega⟩ q)
  (hB : ∀ q : Fin 2560, V m c main_v23 (ix2 (0 : Fin 1) q) = Bm m c q)
  (hP : ∀ j : Fin 512, V m c main_v24 (ix2 (0 : Fin 1) j) = arg m c main_arg11 (ix1 j))

include hWl hWc hB in
/-- The accumulator of point t at (p, q). -/
theorem acc_point (t : Fin cfg0.N) (p : Fin 1024) (q : Fin 2560) :
    k0_pay5 (F := Ideal) (View.ld (iblk m c 0 t) rA) (View.ld (iblk m c 3 t) rW) (View.ld (iblk m c 1 t) rH0)
        (View.ld (iblk m c 4 t) rU0) (View.ld (iblk m c 1 t) rH1) (View.ld (iblk m c 4 t) rU1) (View.ld (iblk m c 5 t) rB) (ix2 p q)
      = Cert.TreeCell.lin (Cert.TreeCell.xrow (arg m c main_arg0) (arg m c main_arg1) (brow t p)) (fun k => Wm m c k q) + Bm m c q := by
  refine (Pay.acc_apply _ _ _ _ _ _ _ p q).trans ?_
  rw [Cert.TreeCell.lin_split]
  refine congrArg₂ (· + ·) (congrArg₂ (· + ·) (congrArg₂ (· + ·) (Finset.sum_congr rfl fun k _ => ?_)
    (Finset.sum_congr rfl fun k _ => ?_)) (Finset.sum_congr rfl fun k _ => ?_)) ?_
  · rw [ldA, ldW, V_main_arg0, hWl]
  · rw [ldH0, ldU0, V_main_arg1, hWc]
    exact congrArg (fun i => _ * Wm m c i q) (Fin.ext (by show 128 + 512 * 0 + k.val = 128 + k.val; omega))
  · rw [ldH1, ldU1, V_main_arg1, hWc]
    exact congrArg (fun i => _ * Wm m c i q) (Fin.ext (by show 128 + 512 * 1 + k.val = 640 + k.val; omega))
  · rw [ldB, hB]

theorem hzO : (![0, 0] : Fin 2 → Nat) = fun _ => 0 := funext fun a => by fin_cases a <;> rfl

/-- The seven loads the accumulator is computed from, at point t. -/
abbrev accOf (t : Fin cfg0.N) : FVec Ideal S1024x2560 .f32 :=
  k0_pay5 (F := Ideal) (View.ld (iblk m c 0 t) rA) (View.ld (iblk m c 3 t) rW) (View.ld (iblk m c 1 t) rH0)
    (View.ld (iblk m c 4 t) rU0) (View.ld (iblk m c 1 t) rH1) (View.ld (iblk m c 4 t) rU1) (View.ld (iblk m c 5 t) rB)

include hWl hWc hB in
/-- A gate's pre-activation at point t: the input row of batch row 1024 t + p against the gate's own weight row, plus the
    gate's bias. -/
theorem gates_point (t : Fin cfg0.N) (p : Fin 1024) (j : Fin 512) :
    accOf m c t (ix2 p (⟨j.val, by omega⟩ : Fin 2560))
        = Cert.TreeCell.lin (Cert.TreeCell.xrow (arg m c main_arg0) (arg m c main_arg1) (brow t p)) (Cert.TreeCell.wrow (arg m c main_arg3) j)
            + arg m c main_arg4 (ix1 j)
    ∧ accOf m c t (ix2 p (⟨512 + j.val, by omega⟩ : Fin 2560))
        = Cert.TreeCell.lin (Cert.TreeCell.xrow (arg m c main_arg0) (arg m c main_arg1) (brow t p)) (Cert.TreeCell.wrow (arg m c main_arg5) j)
            + arg m c main_arg6 (ix1 j)
    ∧ accOf m c t (ix2 p (⟨1024 + j.val, by omega⟩ : Fin 2560))
        = Cert.TreeCell.lin (Cert.TreeCell.xrow (arg m c main_arg0) (arg m c main_arg1) (brow t p)) (Cert.TreeCell.wrow (arg m c main_arg7) j)
            + arg m c main_arg8 (ix1 j)
    ∧ accOf m c t (ix2 p (⟨1536 + j.val, by omega⟩ : Fin 2560))
        = Cert.TreeCell.lin (Cert.TreeCell.xrow (arg m c main_arg0) (arg m c main_arg1) (brow t p))
            (Cert.TreeCell.frow (arg m c main_arg9) (arg m c main_arg10) 0 j)
    ∧ accOf m c t (ix2 p (⟨2048 + j.val, by omega⟩ : Fin 2560))
        = Cert.TreeCell.lin (Cert.TreeCell.xrow (arg m c main_arg0) (arg m c main_arg1) (brow t p))
            (Cert.TreeCell.frow (arg m c main_arg9) (arg m c main_arg10) 1 j) := by
  refine ⟨(acc_point m c hWl hWc hB t p _).trans ?_, (acc_point m c hWl hWc hB t p _).trans ?_,
    (acc_point m c hWl hWc hB t p _).trans ?_, (acc_point m c hWl hWc hB t p _).trans ?_,
    (acc_point m c hWl hWc hB t p _).trans ?_⟩
  · simp only [Cert.TreeCell.wall_i, Cert.TreeCell.ball_i]
  · simp only [Cert.TreeCell.wall_o, Cert.TreeCell.ball_o]
  · simp only [Cert.TreeCell.wall_u, Cert.TreeCell.ball_u]
  · simp only [Cert.TreeCell.wall_f0, Cert.TreeCell.ball_f0, add_zero]
  · simp only [Cert.TreeCell.wall_f1, Cert.TreeCell.ball_f1, add_zero]

include hWl hWc hB hP in
/-- What point t leaves in the first output's block at (p, j): the specification's next cell at batch row 1024 t + p. -/
theorem point7 (t : Fin cfg0.N) (p : Fin 1024) (j : Fin 512) :
    out0_7 (iblk m c 0 t) (iblk m c 1 t) (iblk m c 2 t) (iblk m c 3 t) (iblk m c 4 t) (iblk m c 5 t) (iblk m c 6 t) (ix2 p j)
      = Cert.TreeCell.cell (arg m c main_arg0) (arg m c main_arg1) (arg m c main_arg2) (arg m c main_arg3) (arg m c main_arg4)
          (arg m c main_arg7) (arg m c main_arg8) (arg m c main_arg9) (arg m c main_arg10) (arg m c main_arg11) (brow t p) j := by
  obtain ⟨gi, -, gu, gf0, gf1⟩ := gates_point m c hWl hWc hB t p j
  have hc0 : k0_pay3 (F := Ideal) (View.ld (iblk m c 2 t) rH0) (ix2 p j) = arg m c main_arg2 (ix3 (0 : Fin 2) (brow t p) j) :=
    (Pay.pay3_apply _ p j).trans ((ldC0 m c t p j).trans (congrFun (V_main_arg2 m c) _))
  have hc1 : k0_pay4 (F := Ideal) (View.ld (iblk m c 2 t) rH1) (ix2 p j) = arg m c main_arg2 (ix3 (1 : Fin 2) (brow t p) j) :=
    (Pay.pay4_apply _ p j).trans ((ldC1 m c t p j).trans (congrFun (V_main_arg2 m c) _))
  have hfb : View.ld (iblk m c 6 t) rP (ix2 (0 : Fin 1) j) = arg m c main_arg11 (ix1 j) := (ldP m c t j).trans (hP j)
  have h6 := (Pay.pay6_apply (View.ld (iblk m c 0 t) rA) (View.ld (iblk m c 3 t) rW) (View.ld (iblk m c 1 t) rH0)
    (View.ld (iblk m c 4 t) rU0) (View.ld (iblk m c 1 t) rH1) (View.ld (iblk m c 4 t) rU1) (View.ld (iblk m c 5 t) rB) p j).trans
      (congrArg Ideal.logistic gi)
  have h8 := (Pay.pay8_apply (View.ld (iblk m c 0 t) rA) (View.ld (iblk m c 3 t) rW) (View.ld (iblk m c 1 t) rH0)
    (View.ld (iblk m c 4 t) rU0) (View.ld (iblk m c 1 t) rH1) (View.ld (iblk m c 4 t) rU1) (View.ld (iblk m c 5 t) rB) p j).trans gu
  unfold out0_7
  rw [View.canon_unit_zero hzO]
  refine (Pay.pay1_apply _ _ _ _ _ _ p j).trans ?_
  unfold Cert.TreeCell.cell
  exact congrArg₂ (· + ·) (congrArg₂ (· + ·) (congrArg₂ (· * ·) h6 (congrArg Ideal.tanh h8))
    (congrArg₂ (· + ·) (congrArg₂ (· * ·) (congrArg Ideal.logistic gf0) hc0) (congrArg₂ (· * ·) (congrArg Ideal.logistic gf1) hc1)))
    (congrArg₂ (· * ·) hfb (congrArg₂ (· + ·) hc0 hc1))

include hWl hWc hB hP in
/-- What point t leaves in the second output's block at (p, j): the specification's output at batch row 1024 t + p. -/
theorem point8 (t : Fin cfg0.N) (p : Fin 1024) (j : Fin 512) :
    out0_8 (iblk m c 0 t) (iblk m c 1 t) (iblk m c 2 t) (iblk m c 3 t) (iblk m c 4 t) (iblk m c 5 t) (iblk m c 6 t) (ix2 p j)
      = Ideal.tanh (Ideal.logistic (Cert.TreeCell.lin (Cert.TreeCell.xrow (arg m c main_arg0) (arg m c main_arg1) (brow t p))
            (Cert.TreeCell.wrow (arg m c main_arg5) j) + arg m c main_arg6 (ix1 j))
          * Cert.TreeCell.cell (arg m c main_arg0) (arg m c main_arg1) (arg m c main_arg2) (arg m c main_arg3) (arg m c main_arg4)
              (arg m c main_arg7) (arg m c main_arg8) (arg m c main_arg9) (arg m c main_arg10) (arg m c main_arg11) (brow t p) j) := by
  obtain ⟨-, go, -⟩ := gates_point m c hWl hWc hB t p j
  have h7 := point7 m c hWl hWc hB hP t p j
  unfold out0_7 at h7
  rw [View.canon_unit_zero hzO] at h7
  have h7' := (Pay.pay7_apply (View.ld (iblk m c 0 t) rA) (View.ld (iblk m c 3 t) rW) (View.ld (iblk m c 1 t) rH0)
    (View.ld (iblk m c 4 t) rU0) (View.ld (iblk m c 1 t) rH1) (View.ld (iblk m c 4 t) rU1) (View.ld (iblk m c 5 t) rB) p j).trans
      (congrArg Ideal.logistic go)
  unfold out0_8
  rw [View.canon_unit_zero hzO]
  refine (Pay.pay2_apply _ _ _ _ _ _ _ p j).trans ?_
  exact congrArg Ideal.tanh (congrArg₂ (· * ·) h7' h7)

end Point

end Cert.KernelIdeal.Val

end
-- ==== Proof.RefIsSpec.lean ====
/-
  The reference program computes the tree-structured LSTM cell of the specification.

  Read entry by entry, the reference's first result is the next cell state and its second result is the hyperbolic
  tangent of the output gate times the next cell state. The steps: the joined input row [label | h₀ | h₁] and the joined
  forget weight row [W_fl | W_fs(g, 0) | W_fs(g, 1)] at a position are the specification's rows (a position below 128
  falls in the first piece, a position 128 + 512 c + r in child c at r); each contraction over the 1152 positions is
  the specification's product of rows; 1 / (1 + exp (−z)) is the logistic function; and a sum over the two children
  starting from zero is the sum of the two terms.
-/
import proofs.«100941_j84189948936634_2_alg».proof.Proof.Gen.ReferenceIdeal.Read
import proofs.«100941_j84189948936634_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.TreeCell
open scoped BigOperators

/-- The joined input row at (b, k) is the specification's row: the label below position 128, then the children's hidden rows. -/
theorem xrow_read (x0 : (⟨S16384x128, .f32⟩ : BufTy).Contents (Elt Ideal)) (x1 : (⟨S2x16384x512, .f32⟩ : BufTy).Contents (Elt Ideal))
    (b : Fin 16384) (k : Fin 1152) :
    Read.val_main_v2 (F := Ideal) x0 x1 (ix2 b k) = xrow x0 x1 b k := by
  unfold Read.val_main_v2 xrow
  by_cases h : k.val < 128
  · rw [dif_pos h]
    exact concatenate_pair_apply_left (1 : Fin 2) x0 (Read.val_main_v1 (F := Ideal) x1)
      concatenates_S16384x128_S16384x1024_S16384x1152_d1 (ix2 b k) rfl (ix2 b (⟨k.val, h⟩ : Fin 128))
      (fun a => match a with
        | ⟨0, _⟩ => rfl
        | ⟨1, _⟩ => rfl)
  · rw [dif_neg h]
    have hk : k.val - 128 < 1024 := by have := k.isLt; omega
    refine (concatenate_pair_apply_right (1 : Fin 2) x0 (Read.val_main_v1 (F := Ideal) x1)
      concatenates_S16384x128_S16384x1024_S16384x1152_d1 (ix2 b k) rfl rfl (ix2 b (⟨k.val - 128, hk⟩ : Fin 1024))
      (fun a => match a with
        | ⟨0, _⟩ => fun _ => rfl
        | ⟨1, _⟩ => fun hne => absurd rfl hne)
      (by show k.val - 128 + 128 = k.val; omega)).trans ?_
    rw [Read.val_main_v1_apply, Read.val_main_v0_apply]
    refine congrArg x1 (funext fun a => Fin.ext ?_)
    have hb := b.isLt
    match a with
    | ⟨0, _⟩ => show (b.val * 1024 + (k.val - 128)) / 512 % 2 = (k.val - 128) / 512; omega
    | ⟨1, _⟩ => show (b.val * 1024 + (k.val - 128)) / 1024 = b.val; omega
    | ⟨2, _⟩ => show (b.val * 1024 + (k.val - 128)) % 512 = (k.val - 128) % 512; omega

/-- The joined forget weight at (g, j, k) is the specification's forget row of child g: W_fl below position 128, then W_fs(g, ·, j, ·). -/
theorem frow_read (x9 : (⟨S512x128, .f32⟩ : BufTy).Contents (Elt Ideal)) (x10 : (⟨S2x2x512x512, .f32⟩ : BufTy).Contents (Elt Ideal))
    (g : Fin 2) (j : Fin 512) (k : Fin 1152) :
    Read.val_main_v34 (F := Ideal) x9 x10 (ix3 g j k) = frow x9 x10 g j k := by
  unfold Read.val_main_v34 frow
  by_cases h : k.val < 128
  · rw [dif_pos h]
    refine (concatenate_pair_apply_left (2 : Fin 3) (Read.val_main_v31 (F := Ideal) x9) (Read.val_main_v33 (F := Ideal) x10)
      concatenates_S2x512x128_S2x512x1024_S2x512x1152_d2 (ix3 g j k) rfl (ix3 g j (⟨k.val, h⟩ : Fin 128))
      (fun a => match a with
        | ⟨0, _⟩ => rfl
        | ⟨1, _⟩ => rfl
        | ⟨2, _⟩ => rfl)).trans ?_
    rw [Read.val_main_v31_apply]
    exact congrArg x9 (funext fun a => match a with
      | ⟨0, _⟩ => rfl
      | ⟨1, _⟩ => rfl)
  · rw [dif_neg h]
    have hk : k.val - 128 < 1024 := by have := k.isLt; omega
    refine (concatenate_pair_apply_right (2 : Fin 3) (Read.val_main_v31 (F := Ideal) x9) (Read.val_main_v33 (F := Ideal) x10)
      concatenates_S2x512x128_S2x512x1024_S2x512x1152_d2 (ix3 g j k) rfl rfl (ix3 g j (⟨k.val - 128, hk⟩ : Fin 1024))
      (fun a => match a with
        | ⟨0, _⟩ => fun _ => rfl
        | ⟨1, _⟩ => fun _ => rfl
        | ⟨2, _⟩ => fun hne => absurd rfl hne)
      (by show k.val - 128 + 128 = k.val; omega)).trans ?_
    rw [Read.val_main_v33_apply, Read.val_main_v32_apply]
    refine congrArg x10 (funext fun a => Fin.ext ?_)
    have hg := g.isLt
    have hj := j.isLt
    match a with
    | ⟨0, _⟩ => show ((g.val * 512 + j.val) * 1024 + (k.val - 128)) / 524288 = g.val; omega
    | ⟨1, _⟩ => show ((g.val * 512 + j.val) * 1024 + (k.val - 128)) / 512 % 2 = (k.val - 128) / 512; omega
    | ⟨2, _⟩ => show ((g.val * 512 + j.val) * 1024 + (k.val - 128)) / 1024 % 512 = j.val; omega
    | ⟨3, _⟩ => show ((g.val * 512 + j.val) * 1024 + (k.val - 128)) % 512 = (k.val - 128) % 512; omega

/-- The input gate before the logistic function at (b, j): the product of the input row with row j of W_i, plus b_i(j). -/
theorem in_affine (x0 : (⟨S16384x128, .f32⟩ : BufTy).Contents (Elt Ideal)) (x1 : (⟨S2x16384x512, .f32⟩ : BufTy).Contents (Elt Ideal))
    (x3 : (⟨S512x1152, .f32⟩ : BufTy).Contents (Elt Ideal)) (x4 : (⟨S512, .f32⟩ : BufTy).Contents (Elt Ideal))
    (b : Fin 16384) (j : Fin 512) :
    Read.val_main_v7 (F := Ideal) x0 x1 x3 x4 (ix2 b j) = lin (xrow x0 x1 b) (wrow x3 j) + x4 (ix1 j) := by
  rw [Read.val_main_v7_apply, Read.val_main_v4_apply, Read.val_main_v6_apply, Read.val_main_v5_apply, Ideal.addf_def]
  refine congrArg₂ (· + ·) (Finset.sum_congr rfl fun k _ => ?_)
    (congrArg x4 (funext fun a => match a with | ⟨0, _⟩ => rfl))
  rw [Read.val_main_v3_apply]
  have el : Read.lidx_main_v4 (ix2 b j) k = ix2 b k := funext fun a => match a with
    | ⟨0, _⟩ => rfl
    | ⟨1, _⟩ => rfl
  have er : Read.idx_main_v3 (Read.ridx_main_v4 (ix2 b j) k) = ix2 j k := funext fun a => match a with
    | ⟨0, _⟩ => rfl
    | ⟨1, _⟩ => rfl
  rw [el, er, xrow_read]
  rfl

/-- The output gate before the logistic function at (b, j): the product of the input row with row j of W_o, plus b_o(j). -/
theorem out_affine (x0 : (⟨S16384x128, .f32⟩ : BufTy).Contents (Elt Ideal)) (x1 : (⟨S2x16384x512, .f32⟩ : BufTy).Contents (Elt Ideal))
    (x5 : (⟨S512x1152, .f32⟩ : BufTy).Contents (Elt Ideal)) (x6 : (⟨S512, .f32⟩ : BufTy).Contents (Elt Ideal))
    (b : Fin 16384) (j : Fin 512) :
    Read.val_main_v18 (F := Ideal) x0 x1 x5 x6 (ix2 b j) = lin (xrow x0 x1 b) (wrow x5 j) + x6 (ix1 j) := by
  rw [Read.val_main_v18_apply, Read.val_main_v15_apply, Read.val_main_v17_apply, Read.val_main_v16_apply, Ideal.addf_def]
  refine congrArg₂ (· + ·) (Finset.sum_congr rfl fun k _ => ?_)
    (congrArg x6 (funext fun a => match a with | ⟨0, _⟩ => rfl))
  rw [Read.val_main_v14_apply]
  have el : Read.lidx_main_v15 (ix2 b j) k = ix2 b k := funext fun a => match a with
    | ⟨0, _⟩ => rfl
    | ⟨1, _⟩ => rfl
  have er : Read.idx_main_v14 (Read.ridx_main_v15 (ix2 b j) k) = ix2 j k := funext fun a => match a with
    | ⟨0, _⟩ => rfl
    | ⟨1, _⟩ => rfl
  rw [el, er, xrow_read]
  rfl

/-- The update before the hyperbolic tangent at (b, j): the product of the input row with row j of W_u, plus b_u(j). -/
theorem upd_affine (x0 : (⟨S16384x128, .f32⟩ : BufTy).Contents (Elt Ideal)) (x1 : (⟨S2x16384x512, .f32⟩ : BufTy).Contents (Elt Ideal))
    (x7 : (⟨S512x1152, .f32⟩ : BufTy).Contents (Elt Ideal)) (x8 : (⟨S512, .f32⟩ : BufTy).Contents (Elt Ideal))
    (b : Fin 16384) (j : Fin 512) :
    Read.val_main_v29 (F := Ideal) x0 x1 x7 x8 (ix2 b j) = lin (xrow x0 x1 b) (wrow x7 j) + x8 (ix1 j) := by
  rw [Read.val_main_v29_apply, Read.val_main_v26_apply, Read.val_main_v28_apply, Read.val_main_v27_apply, Ideal.addf_def]
  refine congrArg₂ (· + ·) (Finset.sum_congr rfl fun k _ => ?_)
    (congrArg x8 (funext fun a => match a with | ⟨0, _⟩ => rfl))
  rw [Read.val_main_v25_apply]
  have el : Read.lidx_main_v26 (ix2 b j) k = ix2 b k := funext fun a => match a with
    | ⟨0, _⟩ => rfl
    | ⟨1, _⟩ => rfl
  have er : Read.idx_main_v25 (Read.ridx_main_v26 (ix2 b j) k) = ix2 j k := funext fun a => match a with
    | ⟨0, _⟩ => rfl
    | ⟨1, _⟩ => rfl
  rw [el, er, xrow_read]
  rfl

/-- Child g's forget gate before the logistic function at (b, j): the product of the input row with child g's forget row for unit j. -/
theorem forget_lin (x0 : (⟨S16384x128, .f32⟩ : BufTy).Contents (Elt Ideal)) (x1 : (⟨S2x16384x512, .f32⟩ : BufTy).Contents (Elt Ideal))
    (x9 : (⟨S512x128, .f32⟩ : BufTy).Contents (Elt Ideal)) (x10 : (⟨S2x2x512x512, .f32⟩ : BufTy).Contents (Elt Ideal))
    (g : Fin 2) (b : Fin 16384) (j : Fin 512) :
    Read.val_main_v36 (F := Ideal) x0 x1 x9 x10 (ix3 g b j) = lin (xrow x0 x1 b) (frow x9 x10 g j) := by
  rw [Read.val_main_v36_apply, Read.val_main_v35_apply]
  refine Finset.sum_congr rfl fun k _ => ?_
  have el : Read.lidx_main_v35 (Read.idx_main_v36 (ix3 g b j)) k = ix2 b k := funext fun a => match a with
    | ⟨0, _⟩ => rfl
    | ⟨1, _⟩ => rfl
  have er : Read.ridx_main_v35 (Read.idx_main_v36 (ix3 g b j)) k = ix3 g j k := funext fun a => match a with
    | ⟨0, _⟩ => rfl
    | ⟨1, _⟩ => rfl
    | ⟨2, _⟩ => rfl
  rw [el, er, xrow_read, frow_read]

/-- The input gate is the logistic function of its affine part: the program spells it 1 / (1 + exp (−z)). -/
theorem in_logistic (x0 : (⟨S16384x128, .f32⟩ : BufTy).Contents (Elt Ideal)) (x1 : (⟨S2x16384x512, .f32⟩ : BufTy).Contents (Elt Ideal))
    (x3 : (⟨S512x1152, .f32⟩ : BufTy).Contents (Elt Ideal)) (x4 : (⟨S512, .f32⟩ : BufTy).Contents (Elt Ideal))
    (i : S16384x512.Idx) :
    Read.val_main_v13 (F := Ideal) x0 x1 x3 x4 i = Ideal.logistic (Read.val_main_v7 (F := Ideal) x0 x1 x3 x4 i) := by
  rw [Read.val_main_v13_apply, Read.val_main_v12_apply, Read.val_main_cst_0_apply, Read.val_main_v11_apply,
    Read.val_main_v10_apply, Read.val_main_cst_apply, Read.val_main_v9_apply, Read.val_main_v8_apply]
  generalize Read.val_main_v7 (F := Ideal) x0 x1 x3 x4 i = z
  simp only [Ideal.hostDivf_def, Ideal.addf_def, Ideal.hostUnary_exp_def, Ideal.hostNegf_def, Ideal.negf_def, Ideal.ofBits_def,
    ofBits_one]
  rfl

/-- The output gate is the logistic function of its affine part. -/
theorem out_logistic (x0 : (⟨S16384x128, .f32⟩ : BufTy).Contents (Elt Ideal)) (x1 : (⟨S2x16384x512, .f32⟩ : BufTy).Contents (Elt Ideal))
    (x5 : (⟨S512x1152, .f32⟩ : BufTy).Contents (Elt Ideal)) (x6 : (⟨S512, .f32⟩ : BufTy).Contents (Elt Ideal))
    (i : S16384x512.Idx) :
    Read.val_main_v24 (F := Ideal) x0 x1 x5 x6 i = Ideal.logistic (Read.val_main_v18 (F := Ideal) x0 x1 x5 x6 i) := by
  rw [Read.val_main_v24_apply, Read.val_main_v23_apply, Read.val_main_cst_2_apply, Read.val_main_v22_apply,
    Read.val_main_v21_apply, Read.val_main_cst_1_apply, Read.val_main_v20_apply, Read.val_main_v19_apply]
  generalize Read.val_main_v18 (F := Ideal) x0 x1 x5 x6 i = z
  simp only [Ideal.hostDivf_def, Ideal.addf_def, Ideal.hostUnary_exp_def, Ideal.hostNegf_def, Ideal.negf_def, Ideal.ofBits_def,
    ofBits_one]
  rfl

/-- Each child's forget gate is the logistic function of its product of rows. -/
theorem forget_logistic (x0 : (⟨S16384x128, .f32⟩ : BufTy).Contents (Elt Ideal)) (x1 : (⟨S2x16384x512, .f32⟩ : BufTy).Contents (Elt Ideal))
    (x9 : (⟨S512x128, .f32⟩ : BufTy).Contents (Elt Ideal)) (x10 : (⟨S2x2x512x512, .f32⟩ : BufTy).Contents (Elt Ideal))
    (i : S2x16384x512.Idx) :
    Read.val_main_v42 (F := Ideal) x0 x1 x9 x10 i = Ideal.logistic (Read.val_main_v36 (F := Ideal) x0 x1 x9 x10 i) := by
  rw [Read.val_main_v42_apply, Read.val_main_v41_apply, Read.val_main_cst_4_apply, Read.val_main_v40_apply,
    Read.val_main_v39_apply, Read.val_main_cst_3_apply, Read.val_main_v38_apply, Read.val_main_v37_apply]
  generalize Read.val_main_v36 (F := Ideal) x0 x1 x9 x10 i = z
  simp only [Ideal.hostDivf_def, Ideal.addf_def, Ideal.hostUnary_exp_def, Ideal.hostNegf_def, Ideal.negf_def, Ideal.ofBits_def,
    ofBits_one]
  rfl

/-- The forget gates times the children's cell states, summed over the two children from zero, at (b, j). -/
theorem composed_read (x0 : (⟨S16384x128, .f32⟩ : BufTy).Contents (Elt Ideal)) (x1 x2 : (⟨S2x16384x512, .f32⟩ : BufTy).Contents (Elt Ideal))
    (x9 : (⟨S512x128, .f32⟩ : BufTy).Contents (Elt Ideal)) (x10 : (⟨S2x2x512x512, .f32⟩ : BufTy).Contents (Elt Ideal))
    (b : Fin 16384) (j : Fin 512) :
    Read.val_main_v44 (F := Ideal) x0 x1 x2 x9 x10 (ix2 b j)
      = Ideal.logistic (lin (xrow x0 x1 b) (frow x9 x10 0 j)) * x2 (ix3 (0 : Fin 2) b j)
        + Ideal.logistic (lin (xrow x0 x1 b) (frow x9 x10 1 j)) * x2 (ix3 (1 : Fin 2) b j) := by
  have e : ∀ g : Fin 2, Read.idx_main_v44 (ix2 b j) g = ix3 g b j := fun g => funext fun a => match a with
    | ⟨0, _⟩ => rfl
    | ⟨1, _⟩ => rfl
    | ⟨2, _⟩ => rfl
  rw [Read.val_main_v44_apply, Read.val_main_cst_5_apply, Fin.sum_univ_two, e, e, Read.val_main_v43_apply, Read.val_main_v43_apply,
    forget_logistic, forget_logistic, forget_lin, forget_lin]
  simp only [Ideal.ofBits_def, Ideal.ofBits_zero_f32, zero_add, Ideal.mulf_def]

/-- The children's cell states summed over the two children from zero, at (b, j). -/
theorem children_sum (x2 : (⟨S2x16384x512, .f32⟩ : BufTy).Contents (Elt Ideal)) (b : Fin 16384) (j : Fin 512) :
    Read.val_main_v45 (F := Ideal) x2 (ix2 b j) = x2 (ix3 (0 : Fin 2) b j) + x2 (ix3 (1 : Fin 2) b j) := by
  have e : ∀ g : Fin 2, Read.idx_main_v45 (ix2 b j) g = ix3 g b j := fun g => funext fun a => match a with
    | ⟨0, _⟩ => rfl
    | ⟨1, _⟩ => rfl
    | ⟨2, _⟩ => rfl
  rw [Read.val_main_v45_apply, Read.val_main_cst_6_apply, Fin.sum_univ_two, e, e]
  simp only [Ideal.ofBits_def, Ideal.ofBits_zero_f32, zero_add]

/-- The reference's first result at (b, j) is the next cell state there. -/
theorem next_at (x0 : (⟨S16384x128, .f32⟩ : BufTy).Contents (Elt Ideal)) (x1 x2 : (⟨S2x16384x512, .f32⟩ : BufTy).Contents (Elt Ideal))
    (x3 : (⟨S512x1152, .f32⟩ : BufTy).Contents (Elt Ideal)) (x4 : (⟨S512, .f32⟩ : BufTy).Contents (Elt Ideal))
    (x7 : (⟨S512x1152, .f32⟩ : BufTy).Contents (Elt Ideal)) (x8 : (⟨S512, .f32⟩ : BufTy).Contents (Elt Ideal))
    (x9 : (⟨S512x128, .f32⟩ : BufTy).Contents (Elt Ideal)) (x10 : (⟨S2x2x512x512, .f32⟩ : BufTy).Contents (Elt Ideal))
    (x11 : (⟨S512, .f32⟩ : BufTy).Contents (Elt Ideal))
    (b : Fin 16384) (j : Fin 512) :
    Read.val_main_v51 (F := Ideal) x0 x1 x2 x3 x4 x7 x8 x9 x10 x11 (ix2 b j) = cell x0 x1 x2 x3 x4 x7 x8 x9 x10 x11 b j := by
  have e11 : Read.idx_main_v46 (Read.idx_main_v47 (ix2 b j)) = ix1 j := funext fun a => match a with
    | ⟨0, _⟩ => rfl
  rw [Read.val_main_v51_apply, Read.val_main_v50_apply, Read.val_main_v49_apply, Read.val_main_v48_apply, Read.val_main_v47_apply,
    Read.val_main_v46_apply, Read.val_main_v30_apply, in_logistic, in_affine, upd_affine, composed_read, children_sum, e11]
  simp only [Ideal.addf_def, Ideal.mulf_def, Ideal.hostUnary_tanh_def]
  rfl

/-- The reference's first result is the next cell state. -/
theorem next_eq (x0 : (⟨S16384x128, .f32⟩ : BufTy).Contents (Elt Ideal)) (x1 x2 : (⟨S2x16384x512, .f32⟩ : BufTy).Contents (Elt Ideal))
    (x3 : (⟨S512x1152, .f32⟩ : BufTy).Contents (Elt Ideal)) (x4 : (⟨S512, .f32⟩ : BufTy).Contents (Elt Ideal))
    (x7 : (⟨S512x1152, .f32⟩ : BufTy).Contents (Elt Ideal)) (x8 : (⟨S512, .f32⟩ : BufTy).Contents (Elt Ideal))
    (x9 : (⟨S512x128, .f32⟩ : BufTy).Contents (Elt Ideal)) (x10 : (⟨S2x2x512x512, .f32⟩ : BufTy).Contents (Elt Ideal))
    (x11 : (⟨S512, .f32⟩ : BufTy).Contents (Elt Ideal)) :
    Read.val_main_v51 (F := Ideal) x0 x1 x2 x3 x4 x7 x8 x9 x10 x11 = Cert.TreeCell.nextCell x0 x1 x2 x3 x4 x7 x8 x9 x10 x11 := by
  funext i
  obtain ⟨b, j, rfl⟩ : ∃ (b : Fin 16384) (j : Fin 512), i = ix2 b j := ⟨i 0, i 1, eq_ix2 i⟩
  exact next_at x0 x1 x2 x3 x4 x7 x8 x9 x10 x11 b j

/-- The reference's second result is the hyperbolic tangent of the output gate times the next cell state. -/
theorem hidden_eq (x0 : (⟨S16384x128, .f32⟩ : BufTy).Contents (Elt Ideal)) (x1 x2 : (⟨S2x16384x512, .f32⟩ : BufTy).Contents (Elt Ideal))
    (x3 : (⟨S512x1152, .f32⟩ : BufTy).Contents (Elt Ideal)) (x4 : (⟨S512, .f32⟩ : BufTy).Contents (Elt Ideal))
    (x5 : (⟨S512x1152, .f32⟩ : BufTy).Contents (Elt Ideal)) (x6 : (⟨S512, .f32⟩ : BufTy).Contents (Elt Ideal))
    (x7 : (⟨S512x1152, .f32⟩ : BufTy).Contents (Elt Ideal)) (x8 : (⟨S512, .f32⟩ : BufTy).Contents (Elt Ideal))
    (x9 : (⟨S512x128, .f32⟩ : BufTy).Contents (Elt Ideal)) (x10 : (⟨S2x2x512x512, .f32⟩ : BufTy).Contents (Elt Ideal))
    (x11 : (⟨S512, .f32⟩ : BufTy).Contents (Elt Ideal)) :
    Read.val_main_v53 (F := Ideal) x0 x1 x2 x3 x4 x5 x6 x7 x8 x9 x10 x11
      = Cert.TreeCell.hidden x0 x1 x2 x3 x4 x5 x6 x7 x8 x9 x10 x11 := by
  funext i
  obtain ⟨b, j, rfl⟩ : ∃ (b : Fin 16384) (j : Fin 512), i = ix2 b j := ⟨i 0, i 1, eq_ix2 i⟩
  rw [Read.val_main_v53_apply, Read.val_main_v52_apply, out_logistic, out_affine, next_at]
  simp only [Ideal.mulf_def, Ideal.hostUnary_tanh_def]
  rfl

end Cert.ReferenceIdeal.RefValue

end
-- ==== Proof.HostTerms.lean ====
/-
  The arrays the host operations before the kernel build out of the weight arguments, as terms, and each read entry by entry.

  * The two children's forget matrices [2, 512, 1152]: W_fl under both, then each child's own block row of W_fs with its
    two blocks side by side. At (g, j, k) this is the specification's forget row of child g.
  * The fused weight matrix [1152, 2560]: W_i, W_o, W_u and the two forget matrices, each transposed, side by side. At
    (k, q) it is the specification's fused weight: gate block q / 512, unit q % 512, input position k.
  * The fused bias [2560]: b_i, b_o, b_u, then 1024 zeros.
-/
import proofs.«100941_j84189948936634_2_alg».proof.Proof.Gen.KernelIdeal
import proofs.«100941_j84189948936634_2_alg».proof.Proof.Spec
import proofs.«100941_j84189948936634_2_alg».proof.Proof.RefIsSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Host

open Cert.KernelIdeal Cert.KernelIdeal.Gen Idealize.ShloMosaic Idealize.ShloMosaic.ValueIdx

/-- The two children's forget matrices, [2, 512, 1152]: the label's weight under both, then each child's own block row. -/
def forgetT (Wfl : S512x128.Idx → EReal) (Wfs : S2x2x512x512.Idx → EReal) : S2x512x1152.Idx → EReal :=
  concatenate S2x512x1152 2
    [⟨S2x512x128, broadcastInDim S2x512x128 ![1, 2] bcast_S512x128_S2x512x128_1_2 Wfl⟩,
     ⟨S2x512x1024, shapeCast S2x512x1024 (transpose S2x512x2x512 [0, 2, 1, 3] Wfs transposes_S2x2x512x512_S2x512x2x512_0_2_1_3)
        shapeCasts_S2x512x2x512_S2x512x1024⟩]
    concatenates_S2x512x128_S2x512x1024_S2x512x1152_d2

/-- Child g's forget matrix transposed, [1152, 512]. -/
def forgetCol (g : Nat) (hg : S2x1152x512.Slices ![g, 0, 0] S1x1152x512) (Wfl : S512x128.Idx → EReal) (Wfs : S2x2x512x512.Idx → EReal) :
    S1152x512.Idx → EReal :=
  shapeCast S1152x512
    (extractStridedSlice S1x1152x512 ![g, 0, 0]
      (transpose S2x1152x512 [0, 2, 1] (forgetT Wfl Wfs) transposes_S2x512x1152_S2x1152x512_0_2_1) hg)
    shapeCasts_S1x1152x512_S1152x512

/-- The fused weight matrix, [1152, 2560]: five transposed matrices side by side. -/
def fusedT (Wi Wo Wu : S512x1152.Idx → EReal) (Wfl : S512x128.Idx → EReal) (Wfs : S2x2x512x512.Idx → EReal) :
    S1152x2560.Idx → EReal :=
  concatenate S1152x2560 1
    [⟨S1152x512, transpose S1152x512 [1, 0] Wi transposes_S512x1152_S1152x512_1_0⟩,
     ⟨S1152x512, transpose S1152x512 [1, 0] Wo transposes_S512x1152_S1152x512_1_0⟩,
     ⟨S1152x512, transpose S1152x512 [1, 0] Wu transposes_S512x1152_S1152x512_1_0⟩,
     ⟨S1152x512, forgetCol 0 slices_S2x1152x512_S1x1152x512_0_0_0 Wfl Wfs⟩,
     ⟨S1152x512, forgetCol 1 slices_S2x1152x512_S1x1152x512_1_0_0 Wfl Wfs⟩]
    concatenates_S1152x512_S1152x512_S1152x512_S1152x512_S1152x512_S1152x2560_d1

/-- The fused bias vector, [2560]: three bias vectors, then 1024 zeros. -/
def biasT (bi bo bu : S512.Idx → EReal) : S2560.Idx → EReal :=
  concatenate S2560 0
    [⟨S512, bi⟩, ⟨S512, bo⟩, ⟨S512, bu⟩,
     ⟨S1024, broadcastInDim S1024 ![] bcast_S_S1024 (constant (F := Ideal) S_ .f32 0x00000000#32)⟩]
    concatenates_S512_S512_S512_S1024_S2560_d0

variable (Wi Wo Wu : S512x1152.Idx → EReal) (Wfl : S512x128.Idx → EReal) (Wfs : S2x2x512x512.Idx → EReal)

/-- The forget matrices at (g, j, k): the same two pieces joined as in the reference, so the same row. -/
theorem forgetT_apply (g : Fin 2) (j : Fin 512) (k : Fin 1152) :
    forgetT Wfl Wfs (ix3 g j k) = Cert.TreeCell.frow Wfl Wfs g j k :=
  Cert.ReferenceIdeal.RefValue.frow_read Wfl Wfs g j k

/-- Child 0's transposed forget matrix at (k, j). -/
theorem forgetCol0_apply (k : Fin 1152) (j : Fin 512) :
    forgetCol 0 slices_S2x1152x512_S1x1152x512_0_0_0 Wfl Wfs (ix2 k j) = Cert.TreeCell.frow Wfl Wfs 0 j k := by
  unfold forgetCol
  refine (shapeCast_1ab_ab_apply _ _ k j).trans ?_
  refine (extractStridedSlice_apply _ _ _ _ (ix3 (0 : Fin 2) k j) (fun a => ?_)).trans ?_
  · match a with
    | ⟨0, _⟩ => rfl
    | ⟨1, _⟩ => exact (Nat.zero_add _).symm
    | ⟨2, _⟩ => exact (Nat.zero_add _).symm
  · exact (transpose_ix3_021_apply _ _ (0 : Fin 2) k j).trans (forgetT_apply Wfl Wfs 0 j k)

/-- Child 1's transposed forget matrix at (k, j). -/
theorem forgetCol1_apply (k : Fin 1152) (j : Fin 512) :
    forgetCol 1 slices_S2x1152x512_S1x1152x512_1_0_0 Wfl Wfs (ix2 k j) = Cert.TreeCell.frow Wfl Wfs 1 j k := by
  unfold forgetCol
  refine (shapeCast_1ab_ab_apply _ _ k j).trans ?_
  refine (extractStridedSlice_apply _ _ _ _ (ix3 (1 : Fin 2) k j) (fun a => ?_)).trans ?_
  · match a with
    | ⟨0, _⟩ => rfl
    | ⟨1, _⟩ => exact (Nat.zero_add _).symm
    | ⟨2, _⟩ => exact (Nat.zero_add _).symm
  · exact (transpose_ix3_021_apply _ _ (1 : Fin 2) k j).trans (forgetT_apply Wfl Wfs 1 j k)

/-- The fused weight matrix at (k, q): gate block q / 512, unit q % 512, input position k. -/
theorem fusedT_apply (k : Fin 1152) (q : Fin 2560) :
    fusedT Wi Wo Wu Wfl Wfs (ix2 k q) = Cert.TreeCell.wall Wi Wo Wu Wfl Wfs k q := by
  unfold fusedT Cert.TreeCell.wall
  by_cases h0 : q.val < 512
  · rw [dif_pos h0]
    refine (concatenate_apply_piece (1 : Fin 2) _ _ (ix2 k q) 0 (by simp) S1152x512 _ rfl rfl 0 rfl
      (ix2 k (⟨q.val - 0, by have := q.isLt; omega⟩ : Fin 512)) (fun b => ?_) ?_).trans ?_
    · match b with
      | ⟨0, _⟩ => exact fun _ => rfl
      | ⟨1, _⟩ => exact fun hne => absurd rfl hne
    · show 0 + (q.val - 0) = q.val; omega
    · exact (transpose_ix2_apply Wi _ k _).trans (congrArg (fun j' => Cert.TreeCell.wrow Wi j' k) (Fin.ext (by show q.val - 0 = q.val; omega)))
  · rw [dif_neg h0]
    by_cases h1 : q.val < 1024
    · rw [dif_pos h1]
      refine (concatenate_apply_piece (1 : Fin 2) _ _ (ix2 k q) 1 (by simp) S1152x512 _ rfl rfl 512 rfl
        (ix2 k (⟨q.val - 512, by have := q.isLt; omega⟩ : Fin 512)) (fun b => ?_) ?_).trans ?_
      · match b with
        | ⟨0, _⟩ => exact fun _ => rfl
        | ⟨1, _⟩ => exact fun hne => absurd rfl hne
      · show 512 + (q.val - 512) = q.val; omega
      · exact transpose_ix2_apply Wo _ k _
    · rw [dif_neg h1]
      by_cases h2 : q.val < 1536
      · rw [dif_pos h2]
        refine (concatenate_apply_piece (1 : Fin 2) _ _ (ix2 k q) 2 (by simp) S1152x512 _ rfl rfl 1024 rfl
          (ix2 k (⟨q.val - 1024, by have := q.isLt; omega⟩ : Fin 512)) (fun b => ?_) ?_).trans ?_
        · match b with
          | ⟨0, _⟩ => exact fun _ => rfl
          | ⟨1, _⟩ => exact fun hne => absurd rfl hne
        · show 1024 + (q.val - 1024) = q.val; omega
        · exact transpose_ix2_apply Wu _ k _
      · rw [dif_neg h2]
        by_cases h3 : q.val < 2048
        · rw [dif_pos h3]
          refine (concatenate_apply_piece (1 : Fin 2) _ _ (ix2 k q) 3 (by simp) S1152x512 _ rfl rfl 1536 rfl
            (ix2 k (⟨q.val - 1536, by have := q.isLt; omega⟩ : Fin 512)) (fun b => ?_) ?_).trans ?_
          · match b with
            | ⟨0, _⟩ => exact fun _ => rfl
            | ⟨1, _⟩ => exact fun hne => absurd rfl hne
          · show 1536 + (q.val - 1536) = q.val; omega
          · exact forgetCol0_apply Wfl Wfs k _
        · rw [dif_neg h3]
          refine (concatenate_apply_piece (1 : Fin 2) _ _ (ix2 k q) 4 (by simp) S1152x512 _ rfl rfl 2048 rfl
            (ix2 k (⟨q.val - 2048, by have := q.isLt; omega⟩ : Fin 512)) (fun b => ?_) ?_).trans ?_
          · match b with
            | ⟨0, _⟩ => exact fun _ => rfl
            | ⟨1, _⟩ => exact fun hne => absurd rfl hne
          · show 2048 + (q.val - 2048) = q.val; omega
          · exact forgetCol1_apply Wfl Wfs k _

variable (bi bo bu : S512.Idx → EReal)

/-- The fused bias at q. -/
theorem biasT_apply (q : Fin 2560) : biasT bi bo bu (ix1 q) = Cert.TreeCell.ball bi bo bu q := by
  unfold biasT Cert.TreeCell.ball
  by_cases h0 : q.val < 512
  · rw [dif_pos h0]
    refine (concatenate_apply_piece (t := S2560) (0 : Fin 1)
      [⟨S512, bi⟩, ⟨S512, bo⟩, ⟨S512, bu⟩,
        ⟨S1024, broadcastInDim S1024 ![] bcast_S_S1024 (constant (F := Ideal) S_ .f32 0x00000000#32)⟩]
      (show Shape.Concatenates [S512, S512, S512, S1024] S2560 0 from concatenates_S512_S512_S512_S1024_S2560_d0) (ix1 q) 0 ?_ S512 bi rfl rfl 0 rfl
      (ix1 (⟨q.val, h0⟩ : Fin 512)) (fun b => ?_) ?_).trans ?_
    · simp
    · match b with
      | ⟨0, _⟩ => exact fun hne => absurd rfl hne
    · show 0 + q.val = q.val; omega
    · rfl
  · rw [dif_neg h0]
    by_cases h1 : q.val < 1024
    · rw [dif_pos h1]
      refine (concatenate_apply_piece (0 : Fin 1) _ _ (ix1 q) 1 (by simp) S512 _ rfl rfl 512 rfl
        (ix1 (⟨q.val - 512, by omega⟩ : Fin 512)) (fun b => ?_) ?_).trans rfl
      · match b with
        | ⟨0, _⟩ => exact fun hne => absurd rfl hne
      · show 512 + (q.val - 512) = q.val; omega
    · rw [dif_neg h1]
      by_cases h2 : q.val < 1536
      · rw [dif_pos h2]
        refine (concatenate_apply_piece (0 : Fin 1) _ _ (ix1 q) 2 (by simp) S512 _ rfl rfl 1024 rfl
          (ix1 (⟨q.val - 1024, by omega⟩ : Fin 512)) (fun b => ?_) ?_).trans rfl
        · match b with
          | ⟨0, _⟩ => exact fun hne => absurd rfl hne
        · show 1024 + (q.val - 1024) = q.val; omega
      · rw [dif_neg h2]
        refine (concatenate_apply_piece (0 : Fin 1) _ _ (ix1 q) 3 (by simp) S1024 _ rfl rfl 1536 rfl
          (ix1 (⟨q.val - 1536, by have := q.isLt; omega⟩ : Fin 1024)) (fun b => ?_) ?_).trans Ideal.ofBits_zero_f32
        · match b with
          | ⟨0, _⟩ => exact fun hne => absurd rfl hne
        · show 1536 + (q.val - 1536) = q.val; omega

end Cert.KernelIdeal.Host

end
-- ==== Proof.HostSmall.lean ====
/-
  The two small arrays the host operations before the kernel build: the fused bias row [1, 2560] (the three gates' bias
  vectors, then 1024 zeros, as one row) and the forget-bias row [1, 512] (the forget-bias vector as one row), each read
  entry by entry.
-/
import proofs.«100941_j84189948936634_2_alg».proof.Proof.Gen.KernelIdeal.Launch
import proofs.«100941_j84189948936634_2_alg».proof.Proof.HostTerms
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- Core c's buffer b when the kernel's region is entered: after the host operations. -/
abbrev Vh (b : Ref sig .tc) : Buf (Elt Ideal) ((c : Thread nD τ).loc b) := StableHlo.after hostOps0 (fun b => m (c, b)) b
/-- An argument array as launched. -/
abbrev arg (b : Ref sig .tc) := m ((c : Thread nD τ).loc b)

set_option maxHeartbeats 4000000 in
/-- The forget-bias row is the forget-bias vector as one row. -/
theorem fb_row_eq : (Vh m c main_v24 : S1x512.Idx → EReal)
    = shapeCast S1x512 (arg m c main_arg11 : S512.Idx → EReal) shapeCasts_S512_S1x512 := by
  dsimp only [Vh, hostOps0]
  after_results
  rfl

theorem fb_row_apply (j : Fin 512) :
    (Vh m c main_v24 : S1x512.Idx → EReal) (ix2 (0 : Fin 1) j) = arg m c main_arg11 (ix1 j) := by
  rw [fb_row_eq]
  exact shapeCast_a_1a_apply _ _ (0 : Fin 1) j

set_option maxHeartbeats 4000000 in
/-- The fused bias row is the fused bias vector as one row. -/
theorem bias_row_eq : (Vh m c main_v23 : S1x2560.Idx → EReal)
    = shapeCast S1x2560 (biasT (arg m c main_arg4) (arg m c main_arg6) (arg m c main_arg8)) shapeCasts_S2560_S1x2560 := by
  dsimp only [Vh, hostOps0]
  after_results
  rfl

theorem bias_row_apply (q : Fin 2560) :
    (Vh m c main_v23 : S1x2560.Idx → EReal) (ix2 (0 : Fin 1) q)
      = Cert.TreeCell.ball (arg m c main_arg4) (arg m c main_arg6) (arg m c main_arg8) q := by
  rw [bias_row_eq]
  exact (shapeCast_a_1a_apply _ _ (0 : Fin 1) q).trans (biasT_apply _ _ _ q)

end Cert.KernelIdeal.Host

end
-- ==== Proof.HostPrefix.lean ====
/-
  The two weight arrays the host operations before the kernel build, read entry by entry: the label rows [128, 2560] and
  the two children's rows [2, 512, 2560] of the fused weight matrix.

  The twenty-six operations are taken in five stretches, each beginning at a concatenation, so that inside a stretch every
  operand is a result of the same stretch or comes from the valuation the stretch starts from. A stretch's results are
  read off in one pass; the stretches are then chained, and the composed term is the fused matrix's term cut to rows.
-/
import proofs.«100941_j84189948936634_2_alg».proof.Proof.Gen.KernelIdeal.Launch
import proofs.«100941_j84189948936634_2_alg».proof.Proof.Spec
import proofs.«100941_j84189948936634_2_alg».proof.Proof.HostTerms
import proofs.«100941_j84189948936634_2_alg».proof.Proof.HostSmall
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen Idealize.ShloMosaic Idealize.ShloMosaic.TcCoe Idealize.ShloMosaic.ValueIdx Idealize.SL.Sem

/-! ## The operations in five stretches

Each stretch begins at a concatenation, so that inside a stretch every operation's operands are results of the same stretch
or contents of the valuation the stretch starts from. -/

section Stretch
variable {τ' : Topo} {sig' : RefSig} {Val : EltTy → Type}

/-- The valuation after two stretches of operations is the second stretch's after the first's. -/
theorem after_append (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => exact ih _

variable {x0 x1 x2 x3 x4 y : Ref sig' .tc}

/-- An operation over a literal family of five arrays: its result with each operand's contents at its own array; for one
    simplification pass, the result array not indexed. -/
theorem nary5_result'
    (f : ((k : Fin 5) → ((![x0, x1, x2, x3, x4] : Fin 5 → Ref sig' .tc) k).ty.Contents Val) → y.ty.Contents Val) (hxs hy)
    (G : Valuation τ' sig' Val) :
    (StableHlo.nary (τ := τ') ![x0, x1, x2, x3, x4] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (fun i => i.elim0)))))) := by
  rw [StableHlo.nary_result]; congr 1; funext k; fin_cases k <;> rfl

end Stretch

open Idealize.ShloMosaic.StableHlo in
/-- Each operation's result at its own array is its function's value, and at any other array what was there: one pass. -/
macro "host_results" : tactic =>
  `(tactic| (simp (disch := decide) only [after_cons, after_nil,
      nullary_result', unary_result', binary_result', reshape_result', nary4_result', nary5_result',
      nullary_result_ne', unary_result_ne', binary_result_ne', reshape_result_ne', nary_result_ne']))

/-- Operations 1 to 6: the three transposes, and the two halves of the forget matrices. -/
def segA : List (HloOp τ sig (Elt Ideal)) := (hostOps0 (F := Ideal)).take 6
/-- Operations 7 to 12: the forget matrices joined, transposed, and cut into the two children's. -/
def segB : List (HloOp τ sig (Elt Ideal)) := ((hostOps0 (F := Ideal)).drop 6).take 6
/-- Operations 13 to 19: the fused matrix, its label rows, and its two blocks of child rows. -/
def segC : List (HloOp τ sig (Elt Ideal)) := ((hostOps0 (F := Ideal)).drop 12).take 7
/-- Operations 20 to 23: the child rows stacked, and the bias's zeros. -/
def segD : List (HloOp τ sig (Elt Ideal)) := ((hostOps0 (F := Ideal)).drop 19).take 4
/-- Operations 24 to 26: the bias row and the forget-bias row. -/
def segE : List (HloOp τ sig (Elt Ideal)) := (hostOps0 (F := Ideal)).drop 23

theorem hostOps0_split : (hostOps0 (F := Ideal)) = segA ++ (segB ++ (segC ++ (segD ++ segE))) := rfl

/-- Open a stretch to its literal list of operations. -/
macro "open_stretch" : tactic =>
  `(tactic| simp only [segA, segB, segC, segD, segE, hostOps0, List.take_succ_cons, List.drop_succ_cons, List.take_zero, List.drop_zero])

/-! ## Each stretch's results over the valuation it starts from -/

section
variable (X : Valuation τ sig (Elt Ideal))

theorem A_v0 : (StableHlo.after segA X (Proc.devRef .tc main_v0) : S1152x512.Idx → EReal)
    = transpose S1152x512 [1, 0] (X (Proc.devRef .tc main_arg3)) transposes_S512x1152_S1152x512_1_0 := by
  open_stretch; host_results
theorem A_v1 : (StableHlo.after segA X (Proc.devRef .tc main_v1) : S1152x512.Idx → EReal)
    = transpose S1152x512 [1, 0] (X (Proc.devRef .tc main_arg5)) transposes_S512x1152_S1152x512_1_0 := by
  open_stretch; host_results
theorem A_v2 : (StableHlo.after segA X (Proc.devRef .tc main_v2) : S1152x512.Idx → EReal)
    = transpose S1152x512 [1, 0] (X (Proc.devRef .tc main_arg7)) transposes_S512x1152_S1152x512_1_0 := by
  open_stretch; host_results
theorem A_v3 : (StableHlo.after segA X (Proc.devRef .tc main_v3) : S2x512x128.Idx → EReal)
    = broadcastInDim S2x512x128 ![1, 2] bcast_S512x128_S2x512x128_1_2 (X (Proc.devRef .tc main_arg9)) := by
  open_stretch; host_results
theorem A_v5 : (StableHlo.after segA X (Proc.devRef .tc main_v5) : S2x512x1024.Idx → EReal)
    = shapeCast S2x512x1024 (transpose S2x512x2x512 [0, 2, 1, 3] (X (Proc.devRef .tc main_arg10)) transposes_S2x2x512x512_S2x512x2x512_0_2_1_3)
        shapeCasts_S2x512x2x512_S2x512x1024 := by
  open_stretch; host_results <;> rfl

theorem B_v0 : StableHlo.after segB X (Proc.devRef .tc main_v0) = X (Proc.devRef .tc main_v0) := by
  open_stretch; host_results
theorem B_v1 : StableHlo.after segB X (Proc.devRef .tc main_v1) = X (Proc.devRef .tc main_v1) := by
  open_stretch; host_results
theorem B_v2 : StableHlo.after segB X (Proc.devRef .tc main_v2) = X (Proc.devRef .tc main_v2) := by
  open_stretch; host_results

theorem B_v9 : (StableHlo.after segB X (Proc.devRef .tc main_v9) : S1152x512.Idx → EReal)
    = shapeCast S1152x512
        (extractStridedSlice S1x1152x512 ![0, 0, 0]
          (transpose S2x1152x512 [0, 2, 1] (concatenate S2x512x1152 2
          [⟨S2x512x128, X (Proc.devRef .tc main_v3)⟩, ⟨S2x512x1024, X (Proc.devRef .tc main_v5)⟩]
          concatenates_S2x512x128_S2x512x1024_S2x512x1152_d2) transposes_S2x512x1152_S2x1152x512_0_2_1)
          slices_S2x1152x512_S1x1152x512_0_0_0)
        shapeCasts_S1x1152x512_S1152x512 := by
  open_stretch; host_results <;> rfl
theorem B_v11 : (StableHlo.after segB X (Proc.devRef .tc main_v11) : S1152x512.Idx → EReal)
    = shapeCast S1152x512
        (extractStridedSlice S1x1152x512 ![1, 0, 0]
          (transpose S2x1152x512 [0, 2, 1] (concatenate S2x512x1152 2
          [⟨S2x512x128, X (Proc.devRef .tc main_v3)⟩, ⟨S2x512x1024, X (Proc.devRef .tc main_v5)⟩]
          concatenates_S2x512x128_S2x512x1024_S2x512x1152_d2) transposes_S2x512x1152_S2x1152x512_0_2_1)
          slices_S2x1152x512_S1x1152x512_1_0_0)
        shapeCasts_S1x1152x512_S1152x512 := by
  open_stretch; host_results <;> rfl

theorem C_v14 : (StableHlo.after segC X (Proc.devRef .tc main_v14) : S128x2560.Idx → EReal)
    = truncf (F := Ideal) .bf16 (extractStridedSlice S128x2560 ![0, 0] (concatenate S1152x2560 1
          [⟨S1152x512, X (Proc.devRef .tc main_v0)⟩, ⟨S1152x512, X (Proc.devRef .tc main_v1)⟩, ⟨S1152x512, X (Proc.devRef .tc main_v2)⟩,
           ⟨S1152x512, X (Proc.devRef .tc main_v9)⟩, ⟨S1152x512, X (Proc.devRef .tc main_v11)⟩]
          concatenates_S1152x512_S1152x512_S1152x512_S1152x512_S1152x512_S1152x2560_d1)
        slices_S1152x2560_S128x2560_0_0) bitsLt_bf16_f32 := by
  open_stretch; host_results <;> rfl
theorem C_v17 : (StableHlo.after segC X (Proc.devRef .tc main_v17) : S1x512x2560.Idx → EReal)
    = broadcastInDim S1x512x2560 ![1, 2] bcast_S512x2560_S1x512x2560_1_2
        (extractStridedSlice S512x2560 ![128, 0] (concatenate S1152x2560 1
          [⟨S1152x512, X (Proc.devRef .tc main_v0)⟩, ⟨S1152x512, X (Proc.devRef .tc main_v1)⟩, ⟨S1152x512, X (Proc.devRef .tc main_v2)⟩,
           ⟨S1152x512, X (Proc.devRef .tc main_v9)⟩, ⟨S1152x512, X (Proc.devRef .tc main_v11)⟩]
          concatenates_S1152x512_S1152x512_S1152x512_S1152x512_S1152x512_S1152x2560_d1) slices_S1152x2560_S512x2560_128_0) := by
  open_stretch; host_results <;> rfl
theorem C_v18 : (StableHlo.after segC X (Proc.devRef .tc main_v18) : S1x512x2560.Idx → EReal)
    = broadcastInDim S1x512x2560 ![1, 2] bcast_S512x2560_S1x512x2560_1_2
        (extractStridedSlice S512x2560 ![640, 0] (concatenate S1152x2560 1
          [⟨S1152x512, X (Proc.devRef .tc main_v0)⟩, ⟨S1152x512, X (Proc.devRef .tc main_v1)⟩, ⟨S1152x512, X (Proc.devRef .tc main_v2)⟩,
           ⟨S1152x512, X (Proc.devRef .tc main_v9)⟩, ⟨S1152x512, X (Proc.devRef .tc main_v11)⟩]
          concatenates_S1152x512_S1152x512_S1152x512_S1152x512_S1152x512_S1152x2560_d1) slices_S1152x2560_S512x2560_640_0) := by
  open_stretch; host_results <;> rfl

theorem D_v14 : StableHlo.after segD X (Proc.devRef .tc main_v14) = X (Proc.devRef .tc main_v14) := by
  open_stretch; host_results

theorem D_v20 : (StableHlo.after segD X (Proc.devRef .tc main_v20) : S2x512x2560.Idx → EReal)
    = truncf (F := Ideal) .bf16 (concatenate S2x512x2560 0
        [⟨S1x512x2560, X (Proc.devRef .tc main_v17)⟩, ⟨S1x512x2560, X (Proc.devRef .tc main_v18)⟩]
        concatenates_S1x512x2560_S1x512x2560_S2x512x2560_d0) bitsLt_bf16_f32 := by
  open_stretch; host_results <;> rfl

theorem E_v14 : StableHlo.after segE X (Proc.devRef .tc main_v14) = X (Proc.devRef .tc main_v14) := by
  open_stretch; host_results
theorem E_v20 : StableHlo.after segE X (Proc.devRef .tc main_v20) = X (Proc.devRef .tc main_v20) := by
  open_stretch; host_results

end

variable (m : (ℓ : Loc nD τ sig) → Buf (Elt Ideal) ℓ) (c : Dev nD)

/-! ## The two weight arrays as terms over the arguments -/

/-- A buffer after the host operations, stretch by stretch. -/
theorem Vh_stretches (b : Ref sig .tc) :
    Vh m c b = StableHlo.after segE (StableHlo.after segD (StableHlo.after segC (StableHlo.after segB
      (StableHlo.after segA (fun b => m (c, b)))))) (Proc.devRef .tc b) := by
  show StableHlo.after hostOps0 (fun b => m (c, b)) (Proc.devRef .tc b) = _
  rw [hostOps0_split, after_append, after_append, after_append, after_append]

/-- The label rows: the fused matrix's first 128 rows. -/
theorem wlabel_eq : (Vh m c main_v14 : S128x2560.Idx → EReal)
    = truncf (F := Ideal) .bf16 (extractStridedSlice S128x2560 ![0, 0]
        (fusedT (arg m c main_arg3) (arg m c main_arg5) (arg m c main_arg7) (arg m c main_arg9) (arg m c main_arg10))
        slices_S1152x2560_S128x2560_0_0) bitsLt_bf16_f32 := by
  rw [Vh_stretches, E_v14, D_v14, C_v14, B_v0, B_v1, B_v2, B_v9, B_v11, A_v0, A_v1, A_v2, A_v3, A_v5]
  rfl

/-- The children's rows: rows 128 to 639 and rows 640 to 1151 of the fused matrix, stacked. -/
theorem wchild_eq : (Vh m c main_v20 : S2x512x2560.Idx → EReal)
    = truncf (F := Ideal) .bf16 (concatenate S2x512x2560 0
        [⟨S1x512x2560, broadcastInDim S1x512x2560 ![1, 2] bcast_S512x2560_S1x512x2560_1_2
            (extractStridedSlice S512x2560 ![128, 0]
              (fusedT (arg m c main_arg3) (arg m c main_arg5) (arg m c main_arg7) (arg m c main_arg9) (arg m c main_arg10))
              slices_S1152x2560_S512x2560_128_0)⟩,
         ⟨S1x512x2560, broadcastInDim S1x512x2560 ![1, 2] bcast_S512x2560_S1x512x2560_1_2
            (extractStridedSlice S512x2560 ![640, 0]
              (fusedT (arg m c main_arg3) (arg m c main_arg5) (arg m c main_arg7) (arg m c main_arg9) (arg m c main_arg10))
              slices_S1152x2560_S512x2560_640_0)⟩]
        concatenates_S1x512x2560_S1x512x2560_S2x512x2560_d0) bitsLt_bf16_f32 := by
  rw [Vh_stretches, E_v20, D_v20, C_v17, C_v18, B_v0, B_v1, B_v2, B_v9, B_v11, A_v0, A_v1, A_v2, A_v3, A_v5]
  rfl

/-! ## Read entry by entry -/

/-- One matrix as a one-block stack, at (0, k, q). -/
theorem stack1_apply (x : S512x2560.Idx → EReal) (k : Fin 512) (q : Fin 2560) :
    broadcastInDim S1x512x2560 ![1, 2] bcast_S512x2560_S1x512x2560_1_2 x (ix3 (0 : Fin 1) k q) = x (ix2 k q) :=
  broadcastInDim_apply _ bcast_S512x2560_S1x512x2560_1_2 x _ _ (fun a => match a with
    | ⟨0, _⟩ => by show k.val = if (512 : Nat) = 1 then 0 else k.val; rw [if_neg (by decide)]
    | ⟨1, _⟩ => by show q.val = if (2560 : Nat) = 1 then 0 else q.val; rw [if_neg (by decide)])

/-- The label rows at (k, q): the fused weight at input position k. -/
theorem wlabel_apply (k : Fin 128) (q : Fin 2560) :
    (Vh m c main_v14 : S128x2560.Idx → EReal) (ix2 k q)
      = Cert.TreeCell.wall (arg m c main_arg3) (arg m c main_arg5) (arg m c main_arg7) (arg m c main_arg9) (arg m c main_arg10) ⟨k.val, by omega⟩ q := by
  rw [wlabel_eq]
  exact (slice2_axis0_apply 0 _ slices_S1152x2560_S128x2560_0_0 k q (⟨k.val, by omega⟩ : Fin 1152) (Nat.zero_add _).symm).trans
    (fusedT_apply _ _ _ _ _ _ q)

/-- Child a's rows at (k, q): the fused weight at input position 128 + 512 a + k. -/
theorem wchild_apply (a : Fin 2) (k : Fin 512) (q : Fin 2560) :
    (Vh m c main_v20 : S2x512x2560.Idx → EReal) (ix3 a k q)
      = Cert.TreeCell.wall (arg m c main_arg3) (arg m c main_arg5) (arg m c main_arg7) (arg m c main_arg9) (arg m c main_arg10) ⟨128 + 512 * a.val + k.val, by omega⟩ q := by
  rw [wchild_eq]
  by_cases h0 : a.val = 0
  · refine (concatenate_pair_apply_left (t := S2x512x2560) (s₁ := S1x512x2560) (s₂ := S1x512x2560) (0 : Fin 3) _ _ concatenates_S1x512x2560_S1x512x2560_S2x512x2560_d0 (ix3 a k q) rfl
      (ix3 (0 : Fin 1) k q) (fun b => match b with
        | ⟨0, _⟩ => by show (0 : Nat) = a.val; omega
        | ⟨1, _⟩ => rfl
        | ⟨2, _⟩ => rfl)).trans ?_
    rw [stack1_apply]
    exact (slice2_axis0_apply 128 _ slices_S1152x2560_S512x2560_128_0 k q (⟨128 + 512 * a.val + k.val, by omega⟩ : Fin 1152)
      (by show 128 + 512 * a.val + k.val = 128 + k.val; omega)).trans (fusedT_apply _ _ _ _ _ _ q)
  · have h1 : a.val = 1 := by omega
    refine (concatenate_pair_apply_right (t := S2x512x2560) (s₁ := S1x512x2560) (s₂ := S1x512x2560) (0 : Fin 3) _ _ concatenates_S1x512x2560_S1x512x2560_S2x512x2560_d0 (ix3 a k q) rfl rfl
      (ix3 (0 : Fin 1) k q) (fun b hb => match b, hb with
        | ⟨0, _⟩, hb => (hb (Fin.ext rfl)).elim
        | ⟨1, _⟩, _ => rfl
        | ⟨2, _⟩, _ => rfl)
      (by show (0 : Nat) + 1 = a.val; omega)).trans ?_
    rw [stack1_apply]
    exact (slice2_axis0_apply 640 _ slices_S1152x2560_S512x2560_640_0 k q (⟨128 + 512 * a.val + k.val, by omega⟩ : Fin 1152)
      (by show 128 + 512 * a.val + k.val = 640 + k.val; omega)).trans (fusedT_apply _ _ _ _ _ _ q)

end Cert.KernelIdeal.Host

end
-- ==== Proof.KernelValue.lean ====
/-
  The kernel's two result arrays after the run, as the specification's two functions of the launched arguments.

  Point t writes back rows [1024 t, 1024 t + 1024) of each result; the sixteen points' blocks tile the 16384 rows, so row r is
  written by point r / 1024, and what it writes there is the specification at batch row r.
-/
import proofs.«100941_j84189948936634_2_alg».proof.Proof.PointValue
import proofs.«100941_j84189948936634_2_alg».proof.Proof.HostPrefix

noncomputable section

namespace Cert.KernelIdeal.Val

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification's next cell of the launched arguments. -/
abbrev G7 (c : Dev nD) : S16384x512.Idx → EReal :=
  Cert.TreeCell.nextCell (arg m c main_arg0) (arg m c main_arg1) (arg m c main_arg2) (arg m c main_arg3) (arg m c main_arg4)
    (arg m c main_arg7) (arg m c main_arg8) (arg m c main_arg9) (arg m c main_arg10) (arg m c main_arg11)

/-- The specification's output of the launched arguments. -/
abbrev G8 (c : Dev nD) : S16384x512.Idx → EReal :=
  Cert.TreeCell.hidden (arg m c main_arg0) (arg m c main_arg1) (arg m c main_arg2) (arg m c main_arg3) (arg m c main_arg4)
    (arg m c main_arg5) (arg m c main_arg6) (arg m c main_arg7) (arg m c main_arg8) (arg m c main_arg9) (arg m c main_arg10)
    (arg m c main_arg11)

/-- Entry (p, j) of point t's block of a result array is entry (1024 t + p, j) of the array. -/
theorem emb7 (t : Fin cfg0.N) (p : Fin 1024) (j : Fin 512) :
    ((cfg0.win 7).blk t).view.emb (ix2 p j) = ix2 (brow t p) j := by
  obtain ⟨-, -, -, -, -, -, -, -, -, -, -, -, -, -, -, -, -, e70, e71, -⟩ := idx_facts t
  refine funext fun a => Fin.ext ?_
  match a with
  | ⟨0, _⟩ => show win0_7.index t (0 : Fin 2) * 1024 + 1 * p.val = t.val * 1024 + p.val; omega
  | ⟨1, _⟩ => show win0_7.index t (1 : Fin 2) * 512 + 1 * j.val = j.val; omega

theorem emb8 (t : Fin cfg0.N) (p : Fin 1024) (j : Fin 512) :
    ((cfg0.win 8).blk t).view.emb (ix2 p j) = ix2 (brow t p) j := by
  obtain ⟨-, -, -, -, -, -, -, -, -, -, -, -, -, -, -, -, -, -, -, e80, e81⟩ := idx_facts t
  refine funext fun a => Fin.ext ?_
  match a with
  | ⟨0, _⟩ => show win0_8.index t (0 : Fin 2) * 1024 + 1 * p.val = t.val * 1024 + p.val; omega
  | ⟨1, _⟩ => show win0_8.index t (1 : Fin 2) * 512 + 1 * j.val = j.val; omega

/-- What point t leaves in the first result's block is that block of the specification's next cell. -/
theorem block7 (c : Dev nD) (t : Fin cfg0.N) (y : S1024x512.Idx) :
    out0_7 (iblk m c 0 t) (iblk m c 1 t) (iblk m c 2 t) (iblk m c 3 t) (iblk m c 4 t) (iblk m c 5 t) (iblk m c 6 t) y
      = G7 m c (((cfg0.win 7).blk t).view.emb y) := by
  obtain ⟨p, j, rfl⟩ : ∃ (p : Fin 1024) (j : Fin 512), y = ix2 p j := ⟨y 0, y 1, eq_ix2 y⟩
  rw [emb7]
  exact point7 m c (Host.wlabel_apply m c) (Host.wchild_apply m c) (Host.bias_row_apply m c) (Host.fb_row_apply m c) t p j

/-- What point t leaves in the second result's block is that block of the specification's output. -/
theorem block8 (c : Dev nD) (t : Fin cfg0.N) (y : S1024x512.Idx) :
    out0_8 (iblk m c 0 t) (iblk m c 1 t) (iblk m c 2 t) (iblk m c 3 t) (iblk m c 4 t) (iblk m c 5 t) (iblk m c 6 t) y
      = G8 m c (((cfg0.win 8).blk t).view.emb y) := by
  obtain ⟨p, j, rfl⟩ : ∃ (p : Fin 1024) (j : Fin 512), y = ix2 p j := ⟨y 0, y 1, eq_ix2 y⟩
  rw [emb8]
  exact point8 m c (Host.wlabel_apply m c) (Host.wchild_apply m c) (Host.bias_row_apply m c) (Host.fb_row_apply m c) t p j

/-- What point t writes back to the first result array. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  funext y
  exact block7 m c t y

/-- What point t writes back to the second result array. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  funext y
  exact block8 m c t y

/-- An index of a result array is in point t's block iff each coordinate is in the block's range on its axis. -/
theorem mem_blk7 (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v25_0).slice (win0_7.rect t)).set ↔ _
  rw [View.set_slice_whole, Rect.mem_set_unit]
  exact Iff.rfl

theorem mem_blk8 (t : Fin cfg0.N) (i : S16384x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v25_1).slice (win0_8.rect t)).set ↔ _
  rw [View.set_slice_whole, Rect.mem_set_unit]
  exact Iff.rfl

/-- The point that writes row r. -/
def pointOf (i : S16384x512.Idx) : Fin cfg0.N := ⟨(i 0).val / 1024, by
  have h : (i 0).val < 16384 := (i 0).isLt
  show (i 0).val / 1024 < grid0.N
  rw [N_0]; omega⟩

theorem pointOf_val (i : S16384x512.Idx) : (pointOf i).val = (i 0).val / 1024 := rfl

/-- Every index of the first result array is in some point's block. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  obtain ⟨-, -, -, -, -, -, -, -, -, -, -, -, -, -, -, -, -, e70, e71, -⟩ := idx_facts (pointOf i)
  have ht := pointOf_val i
  refine ⟨pointOf i, flush0_7 _, ?_⟩
  rw [mem_blk7]
  intro a
  match a with
  | ⟨0, _⟩ => show win0_7.index (pointOf i) (0 : Fin 2) * 1024 ≤ (i 0).val ∧ (i 0).val < win0_7.index (pointOf i) (0 : Fin 2) * 1024 + 1024; omega
  | ⟨1, _⟩ => show win0_7.index (pointOf i) (1 : Fin 2) * 512 ≤ (i 1).val ∧ (i 1).val < win0_7.index (pointOf i) (1 : Fin 2) * 512 + 512; omega

/-- Every index of the second result array is in some point's block. -/
theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  obtain ⟨-, -, -, -, -, -, -, -, -, -, -, -, -, -, -, -, -, -, -, e80, e81⟩ := idx_facts (pointOf i)
  have ht := pointOf_val i
  refine ⟨pointOf i, flush0_8 _, ?_⟩
  rw [mem_blk8]
  intro a
  match a with
  | ⟨0, _⟩ => show win0_8.index (pointOf i) (0 : Fin 2) * 1024 ≤ (i 0).val ∧ (i 0).val < win0_8.index (pointOf i) (0 : Fin 2) * 1024 + 1024; omega
  | ⟨1, _⟩ => show win0_8.index (pointOf i) (1 : Fin 2) * 512 ≤ (i 1).val ∧ (i 1).val < win0_8.index (pointOf i) (1 : Fin 2) * 512 + 512; omega

/-- The first result array after the run is the specification's next cell. -/
theorem final7 (c : Dev nD) : (dats m 0 c).arrAt 7 cfg0.N = G7 m c :=
  (dats m 0 c).arrAt_eq_of_cover 7 (G7 m c) (fun t _ => flushed7_eq m c t) cover7

/-- The second result array after the run is the specification's output. -/
theorem final8 (c : Dev nD) : (dats m 0 c).arrAt 8 cfg0.N = G8 m c :=
  (dats m 0 c).arrAt_eq_of_cover 8 (G8 m c) (fun t _ => flushed8_eq m c t) cover8

/-- The kernel's run, read: both result arrays at the specification's functions of the launched arguments, the arguments
    unchanged. -/
theorem run : θ_run defs (onTc (τ := τ) (main (F := Ideal))) ⟨m, fun _ => 0, ρ⟩ fun r => ∀ c : Dev nD,
      r.2.mem ((c.tc : Thread nD τ).loc main_v25_0) = G7 m c
      ∧ r.2.mem ((c.tc : Thread nD τ).loc main_v25_1) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨((h c).1 7).trans (final7 m c), ((h c).1 8).trans (final8 m c),
      kept m (dats m) (A_eq m) r h c⟩)
    (run_main m ρ)

end Cert.KernelIdeal.Val

end
-- ==== Proof.lean ====
/-
  Two programs compute one N-ary tree LSTM cell (two children per node) over a batch of 16384 rows: a kernel that fuses the
  five gate matrices into one 1152 × 2560 matrix and multiplies the label block and each child's hidden block against its
  own stretch of rows of that matrix, sixteen blocks of 1024 batch rows one after the other; and a reference that
  concatenates label and hidden rows into one input row and multiplies it against each gate's matrix separately.

  Over the extended reals the two agree entry by entry. The only law between them is that a sum over the 1152 input
  positions is the sum over the label's 128 positions plus the sums over each child's 512 positions — commutativity and
  associativity of addition, which hold of every extended real, so the finiteness precondition is never opened. The
  logistic function is spelt 1 / (1 + exp(−z)) by the reference and is one operation in the kernel: one function of z.
  The zero bias the kernel adds on the forget columns adds nothing, and the zero the sums over the two children start
  from adds nothing.

  The modules: Spec (the cell as one function of the arguments), SpecLemmas (the split of the sum; the fused matrix inside
  each gate's columns), RefIsSpec (the reference's two results are the specification), KernelFrame / KernelIdealFrame
  (each kernel program runs to the end, faults nowhere, leaves its arguments as they were, and its result arrays end at
  what the sixteen points wrote back), HostTerms / HostSmall / HostPrefix (the fused matrix and the two bias rows the host
  operations build, entry by entry), LibPlainMatmul (a rows-by-columns product into the zero accumulator as a sum),
  Payload (the body's arithmetic on one block, entry by entry), BlockReads (which rows of the arrays a point's loads
  read), PointValue (what one point stores is the specification at its rows), KernelValue (the blocks tile the result
  arrays).
-/
import proofs.«100941_j84189948936634_2_alg».proof.Defs
import proofs.«100941_j84189948936634_2_alg».proof.Proof.Gen.Kernel
import proofs.«100941_j84189948936634_2_alg».proof.Proof.Gen.KernelIdeal
import proofs.«100941_j84189948936634_2_alg».proof.Proof.Gen.ReferenceIdeal
import proofs.«100941_j84189948936634_2_alg».proof.Proof.Gen.Pre_finite_inputs
import proofs.«100941_j84189948936634_2_alg».proof.Proof.Gen.ReferenceIdeal.Run
import proofs.«100941_j84189948936634_2_alg».proof.Proof.Gen.ReferenceIdeal.Read
import proofs.«100941_j84189948936634_2_alg».proof.Proof.KernelFrame
import proofs.«100941_j84189948936634_2_alg».proof.Proof.KernelIdealFrame
import proofs.«100941_j84189948936634_2_alg».proof.Proof.KernelValue
import proofs.«100941_j84189948936634_2_alg».proof.Proof.RefIsSpec

noncomputable section

namespace Cert.Proof

open Idealize.ShloMosaic Idealize.SL.Sem

/-- The word-level kernel program runs, faults nowhere and leaves its arguments unchanged. -/
theorem frame_k : Cert.frame_Kernel := fun m ρ _ => Cert.Kernel.Fr.frame m ρ

/-- So does the kernel program read over the extended reals. -/
theorem frame_ki : Cert.frame_KernelIdeal := fun m ρ _ => Cert.KernelIdeal.Fr.frame m ρ

/-- The reference is a line of host operations: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Reading the kernel over the extended reals rewrote no operation. -/
theorem preserves : Cert.preserves_Kernel_KernelIdeal := trivial

/-- Both programs end with the specification's next cell and output of the (agreeing) arguments. -/
theorem algebraic : Cert.algebraic_KernelIdeal_ReferenceIdeal := by
  intro m ρ m' ρ' _ hagree
  refine ⟨fun c => Cert.KernelIdeal.Val.G7 m c, fun c => Cert.KernelIdeal.Val.G8 m c, Cert.KernelIdeal.Val.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11⟩ := hagree c
    rw [a0, a1, a2, a3, a4, a7, a8, a9, a10, a11]
    exact (Cert.ReferenceIdeal.Read.val_main_v51_eq _ _ _ _ _ _ _ _ _ _).trans
      (Cert.ReferenceIdeal.RefValue.next_eq _ _ _ _ _ _ _ _ _ _)
  · obtain ⟨a0, a1, a2, a3, a4, a5, a6, a7, a8, a9, a10, a11⟩ := hagree c
    rw [a0, a1, a2, a3, a4, a5, a6, a7, a8, a9, a10, a11]
    exact (Cert.ReferenceIdeal.Read.val_main_v53_eq _ _ _ _ _ _ _ _ _ _ _ _).trans
      (Cert.ReferenceIdeal.RefValue.hidden_eq _ _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
